-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S400000x128 : Shape := ⟨2, ![400000, 128]⟩
abbrev S400000x2 : Shape := ⟨2, ![400000, 2]⟩
abbrev S128x128 : Shape := ⟨2, ![128, 128]⟩
abbrev S1x128 : Shape := ⟨2, ![1, 128]⟩
abbrev S128 : Shape := ⟨1, ![128]⟩
abbrev S128x384 : Shape := ⟨2, ![128, 384]⟩
abbrev S2x384 : Shape := ⟨2, ![2, 384]⟩
abbrev S_ : Shape := ⟨0, ![]⟩

class Facts : Prop where
  bcast_S_S400000x128 : S_.BroadcastsInDim S400000x128 (![] : Fin 0 → Fin S400000x128.rank)
  reducesTo_S400000x128_S_d0_1 : S400000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  bcast_S_S2x384 : S_.BroadcastsInDim S2x384 (![] : Fin 0 → Fin S2x384.rank)
  reducesTo_S2x384_S_d0_1 : S2x384.ReducesTo [0, 1] S_

variable [Facts]

def fn_part3 {F : FTy → Type} [FloatOps F] (main_arg13 : FVec F S128x384 .f32) (main_arg14 : FVec F S2x384 .f32) (main_v48 : IVec S_ 1) (main_v49 : FVec F S128x384 .f32) (main_v50 : FVec F S128x384 .f32) : IVec S_ 1 :=
  let main_v51 : IVec S128x384 1 := cmpf .olt main_v49 main_v50
  let main_c_19 : IVec S_ 1 := constantI S_ 1 1#1
  let main_v52 : IVec S_ 1 := (fun x v => Host.reduce IntOp.andi x v reducesTo_S128x384_S_d0_1 h_S_) main_v51 main_c_19
  let main_v53 : IVec S_ 1 := andi main_v48 main_v52
  let main_v54 : FVec F S128x384 .f32 := Host.absf main_arg13
  let main_cst_20 : FVec F S_ .f32 := constant S_ .f32 0x7F800000#32
  let main_v55 : FVec F S128x384 .f32 := broadcastInDim S128x384 ![] bcast_S_S128x384 main_cst_20
  let main_v56 : IVec S128x384 1 := cmpf .olt main_v54 main_v55
  let main_c_21 : IVec S_ 1 := constantI S_ 1 1#1
  let main_v57 : IVec S_ 1 := (fun x v => Host.reduce IntOp.andi x v reducesTo_S128x384_S_d0_1 h_S_) main_v56 main_c_21
  let main_v58 : IVec S_ 1 := andi main_v53 main_v57
  let main_v59 : FVec F S2x384 .f32 := Host.absf main_arg14
  let main_cst_22 : FVec F S_ .f32 := constant S_ .f32 0x7F800000#32
  let main_v60 : FVec F S2x384 .f32 := broadcastInDim S2x384 ![] bcast_S_S2x384 main_cst_22
  let main_v61 : IVec S2x384 1 := cmpf .olt main_v59 main_v60
  let main_c_23 : IVec S_ 1 := constantI S_ 1 1#1
  let main_v62 : IVec S_ 1 := (fun x v => Host.reduce IntOp.andi x v reducesTo_S2x384_S_d0_1 h_S_) main_v61 main_c_23
  let main_v63 : IVec S_ 1 := andi main_v58 main_v62
  main_v63

def fn_part2 {F : FTy → Type} [FloatOps F] (main_arg9 : FVec F S128 .f32) (main_arg10 : FVec F S128 .f32) (main_arg11 : FVec F S128 .f32) (main_arg12 : FVec F S128x384 .f32) (main_arg13 : FVec F S128x384 .f32) (main_arg14 : FVec F S2x384 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x384 .f32 := Host.absf main_arg12
  let main_cst_18 : FVec F S_ .f32 := constant S_ .f32 0x7F800000#32
  let main_v50 : FVec F S128x384 .f32 := broadcastInDim S128x384 ![] bcast_S_S128x384 main_cst_18
  fn_part3 (F := F) main_arg13 main_arg14 main_v48 main_v49 main_v50

def fn_part1 {F : FTy → Type} [FloatOps F] (main_arg6 : FVec F S1x128 .f32) (main_arg7 : FVec F S1x128 .f32) (main_arg8 : FVec F S128 .f32) (main_arg9 : FVec F S128 .f32) (main_arg10 : FVec F S128 .f32) (main_arg11 : FVec F S128 .f32) (main_arg12 : FVec F S128x384 .f32) (main_arg13 : FVec F S128x384 .f32) (main_arg14 : FVec F S2x384 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S1x128 .f32 := Host.absf main_arg6
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1x128 .f32 := Host.absf main_arg7
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S400000x128 .f32) (main_arg1 : FVec F S400000x128 .f32) (main_arg2 : IVec S400000x2 32) (main_arg3 : IVec S400000x2 32) (main_arg4 : FVec F S128x128 .f32) (main_arg5 : FVec F S128x128 .f32) (main_arg6 : FVec F S1x128 .f32) (main_arg7 : FVec F S1x128 .f32) (main_arg8 : FVec F S128 .f32) (main_arg9 : FVec F S128 .f32) (main_arg10 : FVec F S128 .f32) (main_arg11 : FVec F S128 .f32) (main_arg12 : FVec F S128x384 .f32) (main_arg13 : FVec F S128x384 .f32) (main_arg14 : FVec F S2x384 .f32) : IVec S_ 1 :=
  let main_v0 : FVec F S400000x128 .f32 := Host.absf main_arg0
  let main_cst : FVec F S_ .f32 := constant S_ .f32 0x7F800000#32
  let main_v1 : FVec F S400000x128 .f32 := broadcastInDim S400000x128 ![] bcast_S_S400000x128 main_cst
  let main_v2 : IVec S400000x128 1 := cmpf .olt main_v0 main_v1
  let main_c : IVec S_ 1 := constantI S_ 1 1#1
  let main_v3 : IVec S_ 1 := (fun x v => Host.reduce IntOp.andi x v reducesTo_S400000x128_S_d0_1 h_S_) main_v2 main_c
  let main_v4 : FVec F S400000x128 .f32 := Host.absf main_arg1
  let main_cst_0 : FVec F S_ .f32 := constant S_ .f32 0x7F800000#32
  let main_v5 : FVec F S400000x128 .f32 := broadcastInDim S400000x128 ![] bcast_S_S400000x128 main_cst_0
  let main_v6 : IVec S400000x128 1 := cmpf .olt main_v4 main_v5
  let main_c_1 : IVec S_ 1 := constantI S_ 1 1#1
  let main_v7 : IVec S_ 1 := (fun x v => Host.reduce IntOp.andi x v reducesTo_S400000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S400000x128 : Shape := ⟨2, ![400000, 128]⟩
abbrev S400000x2 : Shape := ⟨2, ![400000, 2]⟩
abbrev S128x128 : Shape := ⟨2, ![128, 128]⟩
abbrev S1x128 : Shape := ⟨2, ![1, 128]⟩
abbrev S128 : Shape := ⟨1, ![128]⟩
abbrev S128x384 : Shape := ⟨2, ![128, 384]⟩
abbrev S2x384 : Shape := ⟨2, ![2, 384]⟩
abbrev S400000x1 : Shape := ⟨2, ![400000, 1]⟩
abbrev S400000 : Shape := ⟨1, ![400000]⟩
abbrev S_ : Shape := ⟨0, ![]⟩
abbrev S3200x128 : Shape := ⟨2, ![3200, 128]⟩
abbrev S1x384 : Shape := ⟨2, ![1, 384]⟩
abbrev S384 : Shape := ⟨1, ![384]⟩
abbrev S3200x384 : Shape := ⟨2, ![3200, 384]⟩

abbrev nBuf : Space → Nat
  | .hbm => 44
  | .vmem => 19
  | .smem => 0
  | _ => 0

abbrev bufTy : (tb : Table) → Fin (tcTables nBuf tb) → BufTy
  | .hbm, ⟨0, _⟩ => ⟨S400000x128, .f32⟩
  | .hbm, ⟨1, _⟩ => ⟨S400000x128, .f32⟩
  | .hbm, ⟨2, _⟩ => ⟨S400000x2, .i32⟩
  | .hbm, ⟨3, _⟩ => ⟨S400000x2, .i32⟩
  | .hbm, ⟨4, _⟩ => ⟨S128x128, .f32⟩
  | .hbm, ⟨5, _⟩ => ⟨S128x128, .f32⟩
  | .hbm, ⟨6, _⟩ => ⟨S1x128, .f32⟩
  | .hbm, ⟨7, _⟩ => ⟨S1x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x384, .f32⟩
  | .hbm, ⟨13, _⟩ => ⟨S128x384, .f32⟩
  | .hbm, ⟨14, _⟩ => ⟨S2x384, .f32⟩
  | .hbm, ⟨15, _⟩ => ⟨S400000x1, .i32⟩
  | .hbm, ⟨16, _⟩ => ⟨S400000, .i32⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S_, .i32⟩
  | .hbm, ⟨21, _⟩ => ⟨S400000, .i32⟩
  | .hbm, ⟨22, _⟩ => ⟨S400000, .i32⟩
  | .hbm, ⟨23, _⟩ => ⟨S400000, .i32⟩
  | .hbm, ⟨24, _⟩ => ⟨S400000x1, .i32⟩
  | .hbm, ⟨25, _⟩ => ⟨S400000x128, .f32⟩
  | .hbm, ⟨26, _⟩ => ⟨S400000x128, .bf16⟩
  | .hbm, ⟨27, _⟩ => ⟨S400000x1, .i32⟩
  | .hbm, ⟨28, _⟩ => ⟨S400000, .i32⟩
  | .hbm, ⟨29, _⟩ => ⟨S_, .i32⟩
  | .hbm, ⟨30, _⟩ => ⟨S400000, .i32⟩
  | .hbm, ⟨31, _⟩ => ⟨S400000, .i1⟩
  | .hbm, ⟨32, _⟩ => ⟨S_, .i32⟩
  | .hbm, ⟨33, _⟩ => ⟨S400000, .i32⟩
  | .hbm, ⟨34, _⟩ => ⟨S400000, .i32⟩
  | .hbm, ⟨35, _⟩ => ⟨S400000, .i32⟩
  | .hbm, ⟨36, _⟩ => ⟨S400000x1, .i32⟩
  | .hbm, ⟨37, _⟩ => ⟨S400000x128, .f32⟩
  | .hbm, ⟨38, _⟩ => ⟨S400000x128, .bf16⟩
  | .hbm, ⟨39, _⟩ => ⟨S1x128, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S400000x128, .f32⟩
  | .local _ .vmem, ⟨0, _⟩ => ⟨S3200x128, .bf16⟩
  | .local _ .vmem, ⟨1, _⟩ => ⟨S3200x128, .bf16⟩
  | .local _ .vmem, ⟨2, _⟩ => ⟨S3200x128, .bf16⟩
  | .local _ .vmem, ⟨3, _⟩ => ⟨S3200x128, .bf16⟩
  | .local _ .vmem, ⟨4, _⟩ => ⟨S3200x128, .f32⟩
  | .local _ .vmem, ⟨5, _⟩ => ⟨S3200x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S128x384, .f32⟩
  | .local _ .vmem, ⟨15, _⟩ => ⟨S128x384, .f32⟩
  | .local _ .vmem, ⟨16, _⟩ => ⟨S2x384, .f32⟩
  | .local _ .vmem, ⟨17, _⟩ => ⟨S3200x128, .f32⟩
  | .local _ .vmem, ⟨18, _⟩ => ⟨S3200x128, .f32⟩
  | _, _ => ⟨S400000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c_1 : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S3200x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S400000x2_S400000x1_0_1 : S400000x2.Slices ![0, 1] S400000x1
  shapeCasts_S400000x1_S400000 : S400000x1.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  bitsLt_bf16_f32 : FTy.bits .bf16 < FTy.bits .f32
  shapeCasts_S128_S1x128 : S128.ShapeCasts S1x128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  broadcasts_S1x128_S3200x128 : S1x128.Broadcasts S3200x128
  shapeCasts_S1x128_S1x128 : S1x128.ShapeCasts S1x128
  inb_S128x384_S128x384_0_0 : ∀ a, (![0, 0] : Fin 2 → Nat) a + S128x384.size a ≤ S128x384.size a
  h_S128x384 : 0 < S128x384.numel
  inb_S2x384_S2x384_0_0 : ∀ a, (![0, 0] : Fin 2 → Nat) a + S2x384.size a ≤ S2x384.size a
  h_S2x384 : 0 < S2x384.numel
  slices_S2x384_o0_0_S1x384 : S2x384.Slices ![0, 0] S1x384
  shapeCasts_S1x384_S384 : S1x384.ShapeCasts S384
  slices_S2x384_o1_0_S1x384 : S2x384.Slices ![1, 0] S1x384
  shapeCasts_S384_S1x384 : S384.ShapeCasts S1x384
  broadcasts_S1x384_S3200x384 : S1x384.Broadcasts S3200x384
  slices_S3200x384_o0_0_S3200x128 : S3200x384.Slices ![0, 0] S3200x128
  slices_S3200x384_o0_128_S3200x128 : S3200x384.Slices ![0, 128] S3200x128
  slices_S3200x384_o0_256_S3200x128 : S3200x384.Slices ![0, 256] S3200x128
  gather_S400000x128_S400000x1_S400000x128_1_0_n_n_0_1_1128_wf : GatherDims.WF S400000x128 S400000x1 S400000x128 [1] [0] [] [0] [] 1 ![1, 128]
  dot_S3200x128_S128x128_S3200x128_1_0_0_1_n_n_wf : DotDims.WF S3200x128 S128x128 S3200x128 [1] [0] [0] [1] [] []
  dot_S3200x128_S128x384_S3200x384_1_0_0_1_n_n_wf : DotDims.WF S3200x128 S128x384 S3200x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S400000x128.size a
  hwx0_0 : ∀ i : grid0.Coords, EltTy.bits .bf16 = 32 ∨ (Rect.block (s := S400000x128) S3200x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S400000x128.size a
  hwx0_1 : ∀ i : grid0.Coords, EltTy.bits .bf16 = 32 ∨ (Rect.block (s := S400000x128) S3200x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x128.size a ≤ S400000x128.size a
  hwx0_2 : ∀ i : grid0.Coords, EltTy.bits .f32 = 32 ∨ (Rect.block (s := S400000x128) S3200x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x384.size a ≤ S128x384.size a
  hwx0_11 : ∀ i : grid0.Coords, EltTy.bits .f32 = 32 ∨ (Rect.block (s := S128x384) S128x384.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x384.size a ≤ S128x384.size a
  hwx0_12 : ∀ i : grid0.Coords, EltTy.bits .f32 = 32 ∨ (Rect.block (s := S128x384) S128x384.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S2x384.size a ≤ S2x384.size a
  hwx0_13 : ∀ i : grid0.Coords, EltTy.bits .f32 = 32 ∨ (Rect.block (s := S2x384) S2x384.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S3200x128.size a ≤ S400000x128.size a
  hwx0_14 : ∀ i : grid0.Coords, EltTy.bits .f32 = 32 ∨ (Rect.block (s := S400000x128) S3200x128.size (cc0_transform_14 i) (hinb0_14 i)).WholeWords (EltTy.packing .f32)

variable [Facts₀]

def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S3200x128_S128x384_S3200x384_1_0_0_1_n_n : DotDims S3200x128 S128x384 S3200x384 where
  lhsContracting := [1]
  rhsContracting := [0]
  lhsNonContracting := [0]
  rhsNonContracting := [1]
  lhsBatch := []
  rhsBatch := []
  wf := dot_S3200x128_S128x384_S3200x384_1_0_0_1_n_n_wf

abbrev win0_0 : Pipeline.Window sig grid0 :=
  Pipeline.Window.ofSpec (Memref.whole main_v9) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S3200x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v20) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v21) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v23) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg12) S128x384.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S128x384.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg14) S2x384.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v24) S3200x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S400000x128 : Shape := ⟨2, ![400000, 128]⟩
abbrev S400000x2 : Shape := ⟨2, ![400000, 2]⟩
abbrev S128x128 : Shape := ⟨2, ![128, 128]⟩
abbrev S1x128 : Shape := ⟨2, ![1, 128]⟩
abbrev S128 : Shape := ⟨1, ![128]⟩
abbrev S128x384 : Shape := ⟨2, ![128, 384]⟩
abbrev S2x384 : Shape := ⟨2, ![2, 384]⟩
abbrev S400000x1 : Shape := ⟨2, ![400000, 1]⟩
abbrev S400000 : Shape := ⟨1, ![400000]⟩
abbrev S_ : Shape := ⟨0, ![]⟩
abbrev S1x384 : Shape := ⟨2, ![1, 384]⟩
abbrev S384 : Shape := ⟨1, ![384]⟩
abbrev S400000x384 : Shape := ⟨2, ![400000, 384]⟩

abbrev nBuf : Space → Nat
  | .hbm => 110
  | .vmem => 0
  | .smem => 0
  | _ => 0

abbrev bufTy : (tb : Table) → Fin (tcTables nBuf tb) → BufTy
  | .hbm, ⟨0, _⟩ => ⟨S400000x128, .f32⟩
  | .hbm, ⟨1, _⟩ => ⟨S400000x128, .f32⟩
  | .hbm, ⟨2, _⟩ => ⟨S400000x2, .i32⟩
  | .hbm, ⟨3, _⟩ => ⟨S400000x2, .i32⟩
  | .hbm, ⟨4, _⟩ => ⟨S128x128, .f32⟩
  | .hbm, ⟨5, _⟩ => ⟨S128x128, .f32⟩
  | .hbm, ⟨6, _⟩ => ⟨S1x128, .f32⟩
  | .hbm, ⟨7, _⟩ => ⟨S1x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128, .f32⟩
  | .hbm, ⟨12, _⟩ => ⟨S128x384, .f32⟩
  | .hbm, ⟨13, _⟩ => ⟨S128x384, .f32⟩
  | .hbm, ⟨14, _⟩ => ⟨S2x384, .f32⟩
  | .hbm, ⟨15, _⟩ => ⟨S400000x1, .i32⟩
  | .hbm, ⟨16, _⟩ => ⟨S400000, .i32⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S_, .i32⟩
  | .hbm, ⟨21, _⟩ => ⟨S400000, .i32⟩
  | .hbm, ⟨22, _⟩ => ⟨S400000, .i32⟩
  | .hbm, ⟨23, _⟩ => ⟨S400000, .i32⟩
  | .hbm, ⟨24, _⟩ => ⟨S400000x1, .i32⟩
  | .hbm, ⟨25, _⟩ => ⟨S400000x128, .f32⟩
  | .hbm, ⟨26, _⟩ => ⟨S400000x1, .i32⟩
  | .hbm, ⟨27, _⟩ => ⟨S400000, .i32⟩
  | .hbm, ⟨28, _⟩ => ⟨S_, .i32⟩
  | .hbm, ⟨29, _⟩ => ⟨S400000, .i32⟩
  | .hbm, ⟨30, _⟩ => ⟨S400000, .i1⟩
  | .hbm, ⟨31, _⟩ => ⟨S_, .i32⟩
  | .hbm, ⟨32, _⟩ => ⟨S400000, .i32⟩
  | .hbm, ⟨33, _⟩ => ⟨S400000, .i32⟩
  | .hbm, ⟨34, _⟩ => ⟨S400000, .i32⟩
  | .hbm, ⟨35, _⟩ => ⟨S400000x1, .i32⟩
  | .hbm, ⟨36, _⟩ => ⟨S400000x128, .f32⟩
  | .hbm, ⟨37, _⟩ => ⟨S400000x128, .f32⟩
  | .hbm, ⟨38, _⟩ => ⟨S400000x128, .f32⟩
  | .hbm, ⟨39, _⟩ => ⟨S400000x128, .f32⟩
  | .hbm, ⟨40, _⟩ => ⟨S400000x128, .f32⟩
  | .hbm, ⟨41, _⟩ => ⟨S400000x128, .f32⟩
  | .hbm, ⟨42, _⟩ => ⟨S400000x128, .f32⟩
  | .hbm, ⟨43, _⟩ => ⟨S400000x128, .f32⟩
  | .hbm, ⟨44, _⟩ => ⟨S400000x128, .f32⟩
  | .hbm, ⟨45, _⟩ => ⟨S400000x128, .f32⟩
  | .hbm, ⟨46, _⟩ => ⟨S_, .f32⟩
  | .hbm, ⟨47, _⟩ => ⟨S400000x128, .f32⟩
  | .hbm, ⟨48, _⟩ => ⟨S400000x128, .f32⟩
  | .hbm, ⟨49, _⟩ => ⟨S1x128, .f32⟩
  | .hbm, ⟨50, _⟩ => ⟨S400000x128, .f32⟩
  | .hbm, ⟨51, _⟩ => ⟨S400000x128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S1x128, .f32⟩
  | .hbm, ⟨57, _⟩ => ⟨S400000x128, .f32⟩
  | .hbm, ⟨58, _⟩ => ⟨S400000x128, .f32⟩
  | .hbm, ⟨59, _⟩ => ⟨S1x128, .f32⟩
  | .hbm, ⟨60, _⟩ => ⟨S400000x128, .f32⟩
  | .hbm, ⟨61, _⟩ => ⟨S400000x128, .f32⟩
  | .hbm, ⟨62, _⟩ => ⟨S1x128, .f32⟩
  | .hbm, ⟨63, _⟩ => ⟨S400000x128, .f32⟩
  | .hbm, ⟨64, _⟩ => ⟨S400000x128, .f32⟩
  | .hbm, ⟨65, _⟩ => ⟨S1x384, .f32⟩
  | .hbm, ⟨66, _⟩ => ⟨S384, .f32⟩
  | .hbm, ⟨67, _⟩ => ⟨S1x384, .f32⟩
  | .hbm, ⟨68, _⟩ => ⟨S384, .f32⟩
  | .hbm, ⟨69, _⟩ => ⟨S400000x384, .f32⟩
  | .hbm, ⟨70, _⟩ => ⟨S1x384, .f32⟩
  | .hbm, ⟨71, _⟩ => ⟨S400000x384, .f32⟩
  | .hbm, ⟨72, _⟩ => ⟨S400000x384, .f32⟩
  | .hbm, ⟨73, _⟩ => ⟨S400000x384, .f32⟩
  | .hbm, ⟨74, _⟩ => ⟨S1x384, .f32⟩
  | .hbm, ⟨75, _⟩ => ⟨S400000x384, .f32⟩
  | .hbm, ⟨76, _⟩ => ⟨S400000x384, .f32⟩
  | .hbm, ⟨77, _⟩ => ⟨S400000x128, .f32⟩
  | .hbm, ⟨78, _⟩ => ⟨S400000x128, .f32⟩
  | .hbm, ⟨79, _⟩ => ⟨S400000x128, .f32⟩
  | .hbm, ⟨80, _⟩ => ⟨S400000x128, .f32⟩
  | .hbm, ⟨81, _⟩ => ⟨S400000x128, .f32⟩
  | .hbm, ⟨82, _⟩ => ⟨S400000x128, .f32⟩
  | .hbm, ⟨83, _⟩ => ⟨S400000x128, .f32⟩
  | .hbm, ⟨84, _⟩ => ⟨S400000x128, .f32⟩
  | .hbm, ⟨85, _⟩ => ⟨S400000x128, .f32⟩
  | .hbm, ⟨86, _⟩ => ⟨S_, .f32⟩
  | .hbm, ⟨87, _⟩ => ⟨S400000x128, .f32⟩
  | .hbm, ⟨88, _⟩ => ⟨S400000x128, .f32⟩
  | .hbm, ⟨89, _⟩ => ⟨S_, .f32⟩
  | .hbm, ⟨90, _⟩ => ⟨S400000x128, .f32⟩
  | .hbm, ⟨91, _⟩ => ⟨S400000x128, .f32⟩
  | .hbm, ⟨92, _⟩ => ⟨S400000x128, .f32⟩
  | .hbm, ⟨93, _⟩ => ⟨S400000x128, .f32⟩
  | .hbm, ⟨94, _⟩ => ⟨S400000x128, .f32⟩
  | .hbm, ⟨95, _⟩ => ⟨S_, .f32⟩
  | .hbm, ⟨96, _⟩ => ⟨S400000x128, .f32⟩
  | .hbm, ⟨97, _⟩ => ⟨S400000x128, .f32⟩
  | .hbm, ⟨98, _⟩ => ⟨S_, .f32⟩
  | .hbm, ⟨99, _⟩ => ⟨S400000x128, .f32⟩
  | .hbm, ⟨100, _⟩ => ⟨S400000x128, .f32⟩
  | .hbm, ⟨101, _⟩ => ⟨S400000x128, .f32⟩
  | .hbm, ⟨102, _⟩ => ⟨S400000x128, .f32⟩
  | .hbm, ⟨103, _⟩ => ⟨S400000x128, .f32⟩
  | .hbm, ⟨104, _⟩ => ⟨S400000x128, .f32⟩
  | .hbm, ⟨105, _⟩ => ⟨S_, .f32⟩
  | .hbm, ⟨106, _⟩ => ⟨S400000x128, .f32⟩
  | .hbm, ⟨107, _⟩ => ⟨S400000x128, .f32⟩
  | .hbm, ⟨108, _⟩ => ⟨S400000x128, .f32⟩
  | .hbm, ⟨109, _⟩ => ⟨S400000x128, .f32⟩
  | _, _ => ⟨S400000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_v2 : Ref sig .tc := ⟨.hbm, 18, rfl⟩
abbrev main_v3 : Ref sig .tc := ⟨.hbm, 19, rfl⟩
abbrev main_c_0 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_call0_cst : Ref sig .tc := ⟨.hbm, 46, rfl⟩
abbrev main_call0_v0 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_3 : Ref sig .tc := ⟨.hbm, 86, rfl⟩
abbrev main_v64 : Ref sig .tc := ⟨.hbm, 87, rfl⟩
abbrev main_v65 : Ref sig .tc := ⟨.hbm, 88, rfl⟩
abbrev main_cst_4 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_5 : Ref sig .tc := ⟨.hbm, 95, rfl⟩
abbrev main_v71 : Ref sig .tc := ⟨.hbm, 96, rfl⟩
abbrev main_v72 : Ref sig .tc := ⟨.hbm, 97, rfl⟩
abbrev main_cst_6 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_7 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩

abbrev nD : Nat := 1
abbrev τ : Topo := Topo.v7x

variable {F : FTy → Type} [FloatOps F]

class Facts₀ : Prop where
  slices_S400000x2_S400000x1_0_1 : S400000x2.Slices ![0, 1] S400000x1
  shapeCasts_S400000x1_S400000 : S400000x1.ShapeCasts S400000
  bcast_S_S400000 : S_.BroadcastsInDim S400000 (![] : Fin 0 → Fin S400000.rank)
  bcast_S400000_S400000x1_0 : S400000.BroadcastsInDim S400000x1 (![0] : Fin 1 → Fin S400000x1.rank)
  bcast_S1x128_S400000x128_0_1 : S1x128.BroadcastsInDim S400000x128 (![0, 1] : Fin 2 → Fin S400000x128.rank)
  bcast_S_S400000x128 : S_.BroadcastsInDim S400000x128 (![] : Fin 0 → Fin S400000x128.rank)
  bcast_S128_S1x128_1 : S128.BroadcastsInDim S1x128 (![1] : Fin 1 → Fin S1x128.rank)
  bcast_S_S128 : S_.BroadcastsInDim S128 (![] : Fin 0 → Fin S128.rank)
  slices_S2x384_S1x384_0_0 : S2x384.Slices ![0, 0] S1x384
  shapeCasts_S1x384_S384 : S1x384.ShapeCasts S384
  slices_S2x384_S1x384_1_0 : S2x384.Slices ![1, 0] S1x384
  bcast_S384_S1x384_1 : S384.BroadcastsInDim S1x384 (![1] : Fin 1 → Fin S1x384.rank)
  bcast_S1x384_S400000x384_0_1 : S1x384.BroadcastsInDim S400000x384 (![0, 1] : Fin 2 → Fin S400000x384.rank)
  slices_S400000x384_S400000x128_0_0 : S400000x384.Slices ![0, 0] S400000x128
  slices_S400000x384_S400000x128_0_128 : S400000x384.Slices ![0, 128] S400000x128
  slices_S400000x384_S400000x128_0_256 : S400000x384.Slices ![0, 256] S400000x128
  gather_S400000x128_S400000x1_S400000x128_1_0_n_n_0_1_1128_wf : GatherDims.WF S400000x128 S400000x1 S400000x128 [1] [0] [] [0] [] 1 ![1, 128]
  dot_S400000x128_S128x128_S400000x128_1_0_0_1_n_n_wf : DotDims.WF S400000x128 S128x128 S400000x128 [1] [0] [0] [1] [] []
  dot_S400000x128_S128x384_S400000x384_1_0_0_1_n_n_wf : DotDims.WF S400000x128 S128x384 S400000x384 [1] [0] [0] [1] [] []

variable [Facts₀]

def gather_S400000x128_S400000x1_S400000x128_1_0_n_n_0_1_1128 : GatherDims S400000x128 S400000x1 S400000x128 where
  offsetDims := [1]
  collapsedSliceDims := [0]
  operandBatchingDims := []
  startIndicesBatchingDims := []
  startIndexMap := [0]
  indexVectorDim := 1
  sliceSizes := ![1, 128]
  wf := gather_S400000x128_S400000x1_S400000x128_1_0_n_n_0_1_1128_wf
def dot_S400000x128_S128x128_S400000x128_1_0_0_1_n_n : DotDims S400000x128 S128x128 S400000x128 where
  lhsContracting := [1]
  rhsContracting := [0]
  lhsNonContracting := [0]
  rhsNonContracting := [1]
  lhsBatch := []
  rhsBatch := []
  wf := dot_S400000x128_S128x128_S400000x128_1_0_0_1_n_n_wf
def dot_S400000x128_S128x384_S400000x384_1_0_0_1_n_n : DotDims S400000x128 S128x384 S400000x384 where
  lhsContracting := [1]
  rhsContracting := [0]
  lhsNonContracting := [0]
  rhsNonContracting := [1]
  lhsBatch := []
  rhsBatch := []
  wf := dot_S400000x128_S128x384_S400000x384_1_0_0_1_n_n_wf

class Facts : Prop extends Facts₀ where

variable [Facts]
-- ==== Proof.BondUpdate.lean ====
/-
  One entry of the bond update, as a function of one edge's rows.

  For an edge with gathered neighbour rows `nx`, `px` and bond row `bd` (128 lanes each):
    * the aggregated message at lane j is  max( (Σ_k (nx_k + bd_k)·wN[k,j] + bN_j) + (Σ_k (px_k + bd_k)·wP[k,j] + bP_j), 0 );
    * it is normalised with the stored statistics:  (a_j − μ_j) · rsqrt(σ²_j + ε) · γ_j + β_j;
    * the gated recurrent unit with previous state `bd` forms the 384 input pre-activations
      mx_j = Σ_k u_k·K[k,j] + b0_j and the 384 recurrent ones mh_j = Σ_k bd_k·R[k,j] + b1_j, and from their three
      128-lane thirds  z = σ(mx + mh),  r = σ(mx' + mh'),  h = tanh(mx'' + r·mh''),  out = z·bd + (1 − z)·h.
  Everything is over the extended reals with the exact operations; ε, 1 and 0 are kept as the binary words the
  programs spell, so that no word is ever evaluated except 1, which meets the logistic function's own 1.
  The one law: 1 / (1 + e^(−x)) is the logistic function at every extended real, by its definition.
-/
import Mathlib
import Idealize.ShloMosaic.PureOps.Ideal
import Idealize.ShloMosaic.PureOps.Ideal.Laws
import Idealize.ShloMosaic.PureOps.IdealRules
import Idealize.ShloMosaic.Lib.ValueIdx

noncomputable section

open scoped BigOperators

namespace Cert.BondUpdate

open Idealize.ShloMosaic Idealize.ShloMosaic.ValueIdx

/-- The word of 1.0. -/
abbrev one : EReal := Ideal.ofBits .f32 0x3F800000#32
/-- The word of the variance offset 1e-3. -/
abbrev eps : EReal := Ideal.ofBits .f32 0x3A83126F#32
/-- The word of 0.0. -/
abbrev zero : EReal := Ideal.ofBits .f32 0x00000000#32

/-- The word of 1.0 denotes 1. -/
theorem one_eq : one = 1 := IdealRules.sign_bit.ideal_onePat .f32

/-- 1 / (1 + e^(−x)), with 1 spelt as its word, is the logistic function. -/
theorem sigmoid_eq (x : EReal) : Ideal.div one (one + Ideal.exp (-x)) = Ideal.logistic x := by
  rw [one_eq]; rfl

/-- The rectified aggregated message of one edge at lane `j`. -/
def agg (nx px bd : Fin 128 → EReal) (wN wP : Fin 128 → Fin 128 → EReal) (bN bP : Fin 128 → EReal) (j : Fin 128) : EReal :=
  max (((∑ k : Fin 128, (nx k + bd k) * wN k j) + bN j) + ((∑ k : Fin 128, (px k + bd k) * wP k j) + bP j)) zero

/-- The message normalised with the stored mean and variance, scaled and shifted. -/
def normed (a gam bet mu var : Fin 128 → EReal) (j : Fin 128) : EReal :=
  (a j - mu j) * Ideal.rsqrt (var j + eps) * gam j + bet j

/-- A row times a 128×384 matrix plus a bias: the 384 pre-activations of the unit. -/
def pre (u : Fin 128 → EReal) (w : Fin 128 → Fin 384 → EReal) (b : Fin 384 → EReal) (j : Fin 384) : EReal :=
  (∑ k : Fin 128, u k * w k j) + b j

/-- Lane `c` of the third of the 384 pre-activations that starts at `o`. -/
def third (o : Nat) (ho : o + 128 ≤ 384) (c : Fin 128) : Fin 384 := ⟨o + c.val, by have := c.isLt; omega⟩

/-- The unit's output at lane `c` from the previous state and the two pre-activation rows. -/
def gru (bd : Fin 128 → EReal) (mx mh : Fin 384 → EReal) (c : Fin 128) : EReal :=
  Ideal.logistic (mx (third 0 (by omega) c) + mh (third 0 (by omega) c)) * bd c
    + (one - Ideal.logistic (mx (third 0 (by omega) c) + mh (third 0 (by omega) c)))
      * Ideal.tanh (mx (third 256 (by omega) c)
          + Ideal.logistic (mx (third 128 (by omega) c) + mh (third 128 (by omega) c)) * mh (third 256 (by omega) c))

/-- One entry of the updated bond features. -/
def cell (nx px bd : Fin 128 → EReal) (wN wP : Fin 128 → Fin 128 → EReal) (bN bP gam bet mu var : Fin 128 → EReal)
    (gk rk : Fin 128 → Fin 384 → EReal) (b0 b1 : Fin 384 → EReal) (c : Fin 128) : EReal :=
  gru bd (pre (normed (agg nx px bd wN wP bN bP) gam bet mu var) gk b0) (pre bd rk b1) c

/-- The whole result: entry (e, q) is `cell` of row `e` of the gathered neighbour features and of the bond features,
    the two weight matrices and bias rows, the four statistics vectors, the two gate matrices and the two bias rows. -/
def updated (NX PX BD : (⟨2, ![400000, 128]⟩ : Shape).Idx → EReal) (WN WP : (⟨2, ![128, 128]⟩ : Shape).Idx → EReal)
    (BN BP : (⟨2, ![1, 128]⟩ : Shape).Idx → EReal) (GAM BET MU VAR : (⟨1, ![128]⟩ : Shape).Idx → EReal)
    (GK RK : (⟨2, ![128, 384]⟩ : Shape).Idx → EReal) (B : (⟨2, ![2, 384]⟩ : Shape).Idx → EReal) :
    (⟨2, ![400000, 128]⟩ : Shape).Idx → EReal := fun i =>
  cell (fun k => NX (ix2 (⟨(i 0).val, (i 0).isLt⟩ : Fin 400000) k)) (fun k => PX (ix2 (⟨(i 0).val, (i 0).isLt⟩ : Fin 400000) k))
    (fun k => BD (ix2 (⟨(i 0).val, (i 0).isLt⟩ : Fin 400000) k))
    (fun k j => WN (ix2 k j)) (fun k j => WP (ix2 k j)) (fun j => BN (ix2 (0 : Fin 1) j)) (fun j => BP (ix2 (0 : Fin 1) j))
    (fun j => GAM (ix1 j)) (fun j => BET (ix1 j)) (fun j => MU (ix1 j)) (fun j => VAR (ix1 j))
    (fun k j => GK (ix2 k j)) (fun k j => RK (ix2 k j)) (fun j => B (ix2 (0 : Fin 2) j)) (fun j => B (ix2 (1 : Fin 2) j))
    (⟨(i 1).val, (i 1).isLt⟩ : Fin 128)

/-- The whole result read at (e, q). -/
theorem updated_ix2 (NX PX BD : (⟨2, ![400000, 128]⟩ : Shape).Idx → EReal) (WN WP : (⟨2, ![128, 128]⟩ : Shape).Idx → EReal)
    (BN BP : (⟨2, ![1, 128]⟩ : Shape).Idx → EReal) (GAM BET MU VAR : (⟨1, ![128]⟩ : Shape).Idx → EReal)
    (GK RK : (⟨2, ![128, 384]⟩ : Shape).Idx → EReal) (B : (⟨2, ![2, 384]⟩ : Shape).Idx → EReal) (e : Fin 400000) (q : Fin 128) :
    updated NX PX BD WN WP BN BP GAM BET MU VAR GK RK B (ix2 e q)
      = cell (fun k => NX (ix2 e k)) (fun k => PX (ix2 e k)) (fun k => BD (ix2 e k))
          (fun k j => WN (ix2 k j)) (fun k j => WP (ix2 k j)) (fun j => BN (ix2 (0 : Fin 1) j)) (fun j => BP (ix2 (0 : Fin 1) j))
          (fun j => GAM (ix1 j)) (fun j => BET (ix1 j)) (fun j => MU (ix1 j)) (fun j => VAR (ix1 j))
          (fun k j => GK (ix2 k j)) (fun k j => RK (ix2 k j)) (fun j => B (ix2 (0 : Fin 2) j)) (fun j => B (ix2 (1 : Fin 2) j)) q := rfl

end Cert.BondUpdate

end
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.KernelCell.lean ====
/-
  What the kernel's body computes for one block, read at one entry.

  The body works on a block of 3200 edges. Read at row `p` and lane `q` of the block, its first part gives the rectified
  aggregated message of edge `p` minus the stored mean, and the rest gives the gated unit's output on the normalised
  message and the bond row of edge `p`. Every step is pointwise except: the four matrix products (each entry a sum of
  128 products), the three 128-lane thirds cut from the 384 pre-activations, the two bias rows cut from the [2, 384]
  bias, and a one-row array spread over the 3200 rows.
-/
import proofs.«142706_j5995774345719_2_alg».proof.Proof.Gen.KernelIdeal.Skeleton
import proofs.«142706_j5995774345719_2_alg».proof.Proof.BondUpdate
import proofs.«142706_j5995774345719_2_alg».proof.Proof.LibDotRows
import Idealize.ShloMosaic.Lib.ValueIdx
import Idealize.ShloMosaic.Lib.ValueLayout
import Idealize.ShloMosaic.Lib.Pipeline.Value

noncomputable section

open scoped BigOperators

namespace Cert.KernelIdeal.Cell

open Cert.KernelIdeal Cert.KernelIdeal.Gen Idealize.ShloMosaic Idealize.ShloMosaic.TcCoe Idealize.ShloMosaic.ValueIdx
open Cert.BondUpdate

/-- The logistic function of an array, read at an index. -/
theorem logistic_apply {s : Shape} {φ : FTy} (v : FVec Ideal s φ) (i : s.Idx) : logistic v i = Ideal.logistic (v i) := rfl

/-- The hyperbolic tangent of an array, read at an index. -/
theorem tanh_apply {s : Shape} {φ : FTy} (v : FVec Ideal s φ) (i : s.Idx) : tanh v i = Ideal.tanh (v i) := rfl

/-- The reciprocal square root of an array, read at an index. -/
theorem rsqrt_apply {s : Shape} {φ : FTy} (v : FVec Ideal s φ) (i : s.Idx) : rsqrt v i = Ideal.rsqrt (v i) := rfl

/-- Entry (p, q) of a block's product with a 128×128 matrix, accumulated from zero: the sum of 128 products. -/
theorem prod128 (a : FVec Ideal S3200x128 .bf16) (b : FVec Ideal S128x128 .bf16) (p : Fin 3200) (q : Fin 128) :
    matmul (F := Ideal) dot_S3200x128_S128x128_S3200x128_1_0_0_1_n_n none a b (constant S3200x128 .f32 0x00000000#32) (ix2 p q)
      = ∑ k : Fin 128, a (ix2 p k) * b (ix2 k q) :=
  Cert.Lib.DotRows.matmul_plain_apply a b p q

/-- Entry (p, j) of a block's product with a 128×384 matrix, accumulated from zero. -/
theorem prod384 (a : FVec Ideal S3200x128 .bf16) (b : FVec Ideal S128x384 .bf16) (p : Fin 3200) (j : Fin 384) :
    matmul (F := Ideal) dot_S3200x128_S128x384_S3200x384_1_0_0_1_n_n none a b (constant S3200x384 .f32 0x00000000#32) (ix2 p j)
      = ∑ k : Fin 128, a (ix2 p k) * b (ix2 k j) :=
  Cert.Lib.DotRows.matmul_plain_apply a b p j

/-- The first third of the 384 lanes. -/
theorem third0_apply (X : FVec Ideal S3200x384 .f32) (h : S3200x384.Slices ![0, 0] S3200x128) (p : Fin 3200) (q : Fin 128) :
    extractStridedSlice S3200x128 ![0, 0] X h (ix2 p q) = X (ix2 p (third 0 (by omega) q)) :=
  slice2_axis1_apply 0 X h p q _ rfl

/-- The second third. -/
theorem third128_apply (X : FVec Ideal S3200x384 .f32) (h : S3200x384.Slices ![0, 128] S3200x128) (p : Fin 3200) (q : Fin 128) :
    extractStridedSlice S3200x128 ![0, 128] X h (ix2 p q) = X (ix2 p (third 128 (by omega) q)) :=
  slice2_axis1_apply 128 X h p q _ rfl

/-- The last third. -/
theorem third256_apply (X : FVec Ideal S3200x384 .f32) (h : S3200x384.Slices ![0, 256] S3200x128) (p : Fin 3200) (q : Fin 128) :
    extractStridedSlice S3200x128 ![0, 256] X h (ix2 p q) = X (ix2 p (third 256 (by omega) q)) :=
  slice2_axis1_apply 256 X h p q _ rfl

/-- Row 0 of the [2, 384] bias, cut out, flattened, given back its unit axis and spread over the rows. -/
theorem bias0_apply (B : FVec Ideal S2x384 .f32) (h1 : S2x384.Slices ![0, 0] S1x384) (h2 : S1x384.ShapeCasts S384)
    (h3 : S384.ShapeCasts S1x384) (h4 : S1x384.Broadcasts S3200x384) (p : Fin 3200) (j : Fin 384) :
    broadcastTo S3200x384 (shapeCast S1x384 (shapeCast S384 (extractStridedSlice S1x384 ![0, 0] B h1) h2) h3) h4 (ix2 p j)
      = B (ix2 (0 : Fin 2) j) := by
  rw [broadcastTo_1b_ab_apply, shapeCast_a_1a_apply, shapeCast_1a_a_apply]
  exact slice2_axis0_apply 0 B h1 (0 : Fin 1) j (0 : Fin 2) rfl

/-- Row 1 of the bias, likewise. -/
theorem bias1_apply (B : FVec Ideal S2x384 .f32) (h1 : S2x384.Slices ![1, 0] S1x384) (h2 : S1x384.ShapeCasts S384)
    (h3 : S384.ShapeCasts S1x384) (h4 : S1x384.Broadcasts S3200x384) (p : Fin 3200) (j : Fin 384) :
    broadcastTo S3200x384 (shapeCast S1x384 (shapeCast S384 (extractStridedSlice S1x384 ![1, 0] B h1) h2) h3) h4 (ix2 p j)
      = B (ix2 (1 : Fin 2) j) := by
  rw [broadcastTo_1b_ab_apply, shapeCast_a_1a_apply, shapeCast_1a_a_apply]
  exact slice2_axis0_apply 1 B h1 (0 : Fin 1) j (1 : Fin 2) rfl

/-- A [1, 128] row spread over the 3200 rows of a block. -/
theorem row_apply (v : FVec Ideal S1x128 .f32) (h : S1x128.Broadcasts S3200x128) (p : Fin 3200) (q : Fin 128) :
    broadcastTo S3200x128 v h (ix2 p q) = v (ix2 (0 : Fin 1) q) :=
  broadcastTo_1b_ab_apply v h p q

/-- The body's first part at (p, q): the rectified aggregated message of edge `p` at lane `q`, minus the mean. -/
theorem centred_apply (x0 x1 : Vec Ideal S3200x128 .bf16) (x2 : Vec Ideal S3200x128 .f32) (x3 x4 : Vec Ideal S128x128 .f32)
    (x5 x6 x9 : Vec Ideal S1x128 .f32) (p : Fin 3200) (q : Fin 128) :
    k0_pay6 (F := Ideal) x0 x1 x2 x3 x4 x5 x6 x9 (ix2 p q)
      = agg (fun k => x0 (ix2 p k)) (fun k => x1 (ix2 p k)) (fun k => x2 (ix2 p k)) (fun k j => x3 (ix2 k j))
          (fun k j => x4 (ix2 k j)) (fun j => x5 (ix2 (0 : Fin 1) j)) (fun j => x6 (ix2 (0 : Fin 1) j)) q
        - x9 (ix2 (0 : Fin 1) q) := by
  unfold k0_pay6 k0_pay2 agg
  simp only [subf_apply, maximumf_apply, addf_apply, broadcast_apply, prod128, truncf_apply, shapeCast_self, row_apply]
  rfl

/-- The body's result at (p, q) from what its first part hands over: the gated unit's output at lane `q`. -/
theorem update_apply (v4 : Vec Ideal S3200x128 .f32) (v5 : FVec Ideal S3200x128 .bf16) (v24 v26 v30 : FVec Ideal S1x128 .f32)
    (v32 : FVec Ideal S3200x128 .f32) (e : Ideal .f32) (v42 v44 : Vec Ideal S128x384 .f32) (v46 : Vec Ideal S2x384 .f32)
    (p : Fin 3200) (q : Fin 128) :
    k0_pay1 (F := Ideal) v4 v5 v24 v26 v30 v32 e v42 v44 v46 (ix2 p q)
      = gru (fun k => v4 (ix2 p k))
          (pre (fun k => v32 (ix2 p k) * Ideal.rsqrt (v30 (ix2 (0 : Fin 1) k) + e) * v24 (ix2 (0 : Fin 1) k) + v26 (ix2 (0 : Fin 1) k))
            (fun k j => v42 (ix2 k j)) (fun j => v46 (ix2 (0 : Fin 2) j)))
          (pre (fun k => v5 (ix2 p k)) (fun k j => v44 (ix2 k j)) (fun j => v46 (ix2 (1 : Fin 2) j))) q := by
  unfold k0_pay1 gru pre
  simp only [subf_apply, addf_apply, mulf_apply, broadcast_apply, logistic_apply, tanh_apply, rsqrt_apply, prod384, truncf_apply,
    row_apply, third0_apply, third128_apply, third256_apply, bias0_apply, bias1_apply]
  rfl

/-- What the body stores at (p, q) of a block, from the fourteen input blocks: the bond update's entry of row `p` of
    the three edge blocks and of the parameter blocks. -/
theorem block_entry (x0 x1 : Vec Ideal S3200x128 .bf16) (x2 : Vec Ideal S3200x128 .f32) (x3 x4 : Vec Ideal S128x128 .f32)
    (x5 x6 x7 x8 x9 x10 : Vec Ideal S1x128 .f32) (x11 x12 : Vec Ideal S128x384 .f32) (x13 : Vec Ideal S2x384 .f32)
    (p : Fin 3200) (q : Fin 128) :
    k0_pay1 (F := Ideal) x2 (k0_pay2 x2) (k0_pay3 x7) (k0_pay4 x8) (k0_pay5 x10) (k0_pay6 x0 x1 x2 x3 x4 x5 x6 x9)
        (Scalar.ofBits .f32 0x3A83126F#32) x11 x12 x13 (ix2 p q)
      = cell (fun k => x0 (ix2 p k)) (fun k => x1 (ix2 p k)) (fun k => x2 (ix2 p k)) (fun k j => x3 (ix2 k j))
          (fun k j => x4 (ix2 k j)) (fun j => x5 (ix2 (0 : Fin 1) j)) (fun j => x6 (ix2 (0 : Fin 1) j))
          (fun j => x7 (ix2 (0 : Fin 1) j)) (fun j => x8 (ix2 (0 : Fin 1) j)) (fun j => x9 (ix2 (0 : Fin 1) j))
          (fun j => x10 (ix2 (0 : Fin 1) j)) (fun k j => x11 (ix2 k j)) (fun k j => x12 (ix2 k j))
          (fun j => x13 (ix2 (0 : Fin 2) j)) (fun j => x13 (ix2 (1 : Fin 2) j)) q := by
  rw [update_apply]
  unfold cell normed k0_pay2 k0_pay3 k0_pay4 k0_pay5
  simp only [centred_apply, shapeCast_self, truncf_apply]
  rfl

end Cert.KernelIdeal.Cell

end
-- ==== Proof.KernelArray.lean ====
/-
  From the blocks to the whole array.

  The launch runs the body at 125 points. At point `t` the three edge windows hold rows 3200·t … 3200·t + 3199 of
  their arrays and the eleven parameter windows hold their whole arrays; the body's result is written back as rows
  3200·t … 3200·t + 3199 of the output. The two gathered arrays are prepared on the host from the node features and the
  last column of each pair table (a negative index has the node count added; the gather takes whole rows), and the four
  statistics vectors are given a leading unit axis. So what point `t` writes back is block `t` of ONE function of the
  arguments, the bond update of the gathered arrays; the 125 blocks cover all 400000 rows; hence the output array ends
  as that function.
-/
import proofs.«142706_j5995774345719_2_alg».proof.Proof.Gen.KernelIdeal.Value
import proofs.«142706_j5995774345719_2_alg».proof.Proof.KernelCell
import Idealize.ShloMosaic.Lib.Pipeline.Value
import Idealize.ShloMosaic.Lib.ValueLayout
import Idealize.ShloMosaic.Lib.StableHlo.Run

noncomputable section

open scoped BigOperators

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx Cert.BondUpdate
open Idealize.ShloMosaic.Pipeline (Dat)

/-! ## What the host prepares -/

/-- The last column of a pair table, as a vector of node indices. -/
def lastCol (P : IVec S400000x2 32) : IVec S400000 32 :=
  shapeCast S400000 (extractStridedSlice S400000x1 ![0, 1] P slices_S400000x2_S400000x1_0_1) shapeCasts_S400000x1_S400000

/-- The start indices of the gather: a negative index has the node count added; then a trailing unit axis. -/
def startIdx (P : IVec S400000x2 32) : IVec S400000x1 32 :=
  broadcastInDim S400000x1 ![0] bcast_S400000_S400000x1_0
    (select (cmpi .slt (lastCol P) (broadcastInDim S400000 ![] bcast_S_S400000 (constantI S_ 32 0#32)))
      (addi (lastCol P) (broadcastInDim S400000 ![] bcast_S_S400000 (constantI S_ 32 400000#32))) (lastCol P))

/-- The node features gathered row by row through the last column of a pair table. -/
def neighbours (X : FVec Ideal S400000x128 .f32) (P : IVec S400000x2 32) : FVec Ideal S400000x128 .f32 :=
  Host.gather gather_S400000x128_S400000x1_S400000x128_1_0_n_n_0_1_1128 X (startIdx P)

variable (m : (ℓ : Loc nD τ sig) → Buf (Elt Ideal) ℓ) (ρ : Dev nD → PrngReg)

/-- The next-neighbour window's array as the launch finds it. -/
theorem V_v9 (c : Dev nD) :
    (V m c main_v9 : S400000x128.Idx → EReal) = neighbours (m ((c : Thread nD τ).loc main_arg0)) (m ((c : Thread nD τ).loc main_arg2)) := by
  dsimp only [V, hostOps0]; after_results; rfl

set_option maxHeartbeats 4000000 in
/-- The previous-neighbour window's array as the launch finds it. -/
theorem V_v19 (c : Dev nD) :
    (V m c main_v19 : S400000x128.Idx → EReal) = neighbours (m ((c : Thread nD τ).loc main_arg0)) (m ((c : Thread nD τ).loc main_arg3)) := by
  dsimp only [V, hostOps0]; after_results; rfl

/-- The scale as the launch finds it: the argument vector given a leading unit axis. -/
theorem V_v20 (c : Dev nD) :
    (V m c main_v20 : S1x128.Idx → EReal) = shapeCast S1x128 (m ((c : Thread nD τ).loc main_arg8)) shapeCasts_S128_S1x128 := by
  dsimp only [V, hostOps0]; after_results; rfl

/-- The shift as the launch finds it: the argument vector given a leading unit axis. -/
theorem V_v21 (c : Dev nD) :
    (V m c main_v21 : S1x128.Idx → EReal) = shapeCast S1x128 (m ((c : Thread nD τ).loc main_arg9)) shapeCasts_S128_S1x128 := by
  dsimp only [V, hostOps0]; after_results; rfl

/-- The stored mean as the launch finds it: the argument vector given a leading unit axis. -/
theorem V_v22 (c : Dev nD) :
    (V m c main_v22 : S1x128.Idx → EReal) = shapeCast S1x128 (m ((c : Thread nD τ).loc main_arg10)) shapeCasts_S128_S1x128 := by
  dsimp only [V, hostOps0]; after_results; rfl

/-- The stored variance as the launch finds it: the argument vector given a leading unit axis. -/
theorem V_v23 (c : Dev nD) :
    (V m c main_v23 : S1x128.Idx → EReal) = shapeCast S1x128 (m ((c : Thread nD τ).loc main_arg11)) shapeCasts_S128_S1x128 := by
  dsimp only [V, hostOps0]; after_results; rfl

/-! ## The index maps, decided over the 125 points -/

/-- At point `t` window 0 is on block (t, 0) of its array. -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
/-- At point `t` window 1 is on block (t, 0) of its array. -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
/-- At point `t` window 2 is on block (t, 0) of its array. -/
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
/-- At point `t` window 14 is on block (t, 0) of its array. -/
theorem idx14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)
/-- Window 3 stays on block (0, 0): its block is its whole array. -/
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
/-- Window 4 stays on block (0, 0): its block is its whole array. -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
/-- Window 5 stays on block (0, 0): its block is its whole array. -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)
/-- Window 6 stays on block (0, 0): its block is its whole array. -/
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
/-- Window 7 stays on block (0, 0): its block is its whole array. -/
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
/-- Window 8 stays on block (0, 0): its block is its whole array. -/
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
/-- Window 9 stays on block (0, 0): its block is its whole array. -/
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)
/-- Window 10 stays on block (0, 0): its block is its whole array. -/
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)
/-- Window 11 stays on block (0, 0): its block is its whole array. -/
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)
/-- Window 12 stays on block (0, 0): its block is its whole array. -/
theorem idx12 : ∀ t : Fin cfg0.N, win0_12.index t (0 : Fin 2) = 0 ∧ win0_12.index t (1 : Fin 2) = 0 :=
  (by decide +kernel : ∀ t : Fin grid0.N, win0_12.index t (0 : Fin 2) = 0 ∧ win0_12.index t (1 : Fin 2) = 0)
/-- Window 13 stays on block (0, 0): its block is its whole array. -/
theorem idx13 : ∀ t : Fin cfg0.N, win0_13.index t (0 : Fin 2) = 0 ∧ win0_13.index t (1 : Fin 2) = 0 :=
  (by decide +kernel : ∀ t : Fin grid0.N, win0_13.index t (0 : Fin 2) = 0 ∧ win0_13.index t (1 : Fin 2) = 0)

/-- The offset of a rectangle that is a whole buffer is zero on both axes. -/
theorem hz : (![0, 0] : Fin 2 → Nat) = fun _ => 0 := funext fun a => by fin_cases a <;> rfl

/-- A point's number is below 125. -/
theorem point_lt (t : Fin cfg0.N) : t.val < 125 := lt_of_lt_of_eq t.isLt N_0

/-- Row `p` of block `t` is row 3200·t + p of the array. -/
def rowOf (t : Fin cfg0.N) (p : Fin 3200) : Fin 400000 :=
  ⟨t.val * 3200 + p.val, by have := point_lt t; have := p.isLt; omega⟩

/-! ## The windows' blocks read at an entry -/

/-- The next-neighbour window: block `t` is rows 3200·t … 3200·t + 3199. -/
theorem read0 (c : Dev nD) (t : Fin cfg0.N) (p : Fin 3200) (k : Fin 128) :
    iblk m c 0 t (ix2 p k) = V m c main_v9 (ix2 (rowOf t p) k) := by
  have h := idx0 t
  show V m c main_v9 (((cfg0.win 0).blk t).view.emb (ix2 p k)) = _
  refine congrArg (V m c main_v9) (funext fun d => Fin.ext ?_)
  match d with
  | ⟨0, _⟩ => show win0_0.index t (0 : Fin 2) * 3200 + 1 * p.val = t.val * 3200 + p.val; rw [h.1]; omega
  | ⟨1, _⟩ => show win0_0.index t (1 : Fin 2) * 128 + 1 * k.val = k.val; rw [h.2]; omega

/-- The previous-neighbour window: block `t` is rows 3200·t … 3200·t + 3199. -/
theorem read1 (c : Dev nD) (t : Fin cfg0.N) (p : Fin 3200) (k : Fin 128) :
    iblk m c 1 t (ix2 p k) = V m c main_v19 (ix2 (rowOf t p) k) := by
  have h := idx1 t
  show V m c main_v19 (((cfg0.win 1).blk t).view.emb (ix2 p k)) = _
  refine congrArg (V m c main_v19) (funext fun d => Fin.ext ?_)
  match d with
  | ⟨0, _⟩ => show win0_1.index t (0 : Fin 2) * 3200 + 1 * p.val = t.val * 3200 + p.val; rw [h.1]; omega
  | ⟨1, _⟩ => show win0_1.index t (1 : Fin 2) * 128 + 1 * k.val = k.val; rw [h.2]; omega

/-- The bond-feature window: block `t` is rows 3200·t … 3200·t + 3199. -/
theorem read2 (c : Dev nD) (t : Fin cfg0.N) (p : Fin 3200) (k : Fin 128) :
    iblk m c 2 t (ix2 p k) = V m c main_arg1 (ix2 (rowOf t p) k) := by
  have h := idx2 t
  show V m c main_arg1 (((cfg0.win 2).blk t).view.emb (ix2 p k)) = _
  refine congrArg (V m c main_arg1) (funext fun d => Fin.ext ?_)
  match d with
  | ⟨0, _⟩ => show win0_2.index t (0 : Fin 2) * 3200 + 1 * p.val = t.val * 3200 + p.val; rw [h.1]; omega
  | ⟨1, _⟩ => show win0_2.index t (1 : Fin 2) * 128 + 1 * k.val = k.val; rw [h.2]; omega

/-- The next-neighbour weights: the window is the whole array at every point. -/
theorem read3 (c : Dev nD) (t : Fin cfg0.N) (a : Fin 128) (b : Fin 128) :
    iblk m c 3 t (ix2 a b) = V m c main_arg4 (ix2 a b) := by
  have h := idx3 t
  show V m c main_arg4 (((cfg0.win 3).blk t).view.emb (ix2 a b)) = _
  refine congrArg (V m c main_arg4) (funext fun d => Fin.ext ?_)
  match d with
  | ⟨0, _⟩ => show win0_3.index t (0 : Fin 2) * 128 + 1 * a.val = a.val; rw [h.1]; omega
  | ⟨1, _⟩ => show win0_3.index t (1 : Fin 2) * 128 + 1 * b.val = b.val; rw [h.2]; omega

/-- The previous-neighbour weights: the window is the whole array at every point. -/
theorem read4 (c : Dev nD) (t : Fin cfg0.N) (a : Fin 128) (b : Fin 128) :
    iblk m c 4 t (ix2 a b) = V m c main_arg5 (ix2 a b) := by
  have h := idx4 t
  show V m c main_arg5 (((cfg0.win 4).blk t).view.emb (ix2 a b)) = _
  refine congrArg (V m c main_arg5) (funext fun d => Fin.ext ?_)
  match d with
  | ⟨0, _⟩ => show win0_4.index t (0 : Fin 2) * 128 + 1 * a.val = a.val; rw [h.1]; omega
  | ⟨1, _⟩ => show win0_4.index t (1 : Fin 2) * 128 + 1 * b.val = b.val; rw [h.2]; omega

/-- The next-neighbour bias row: the window is the whole array at every point. -/
theorem read5 (c : Dev nD) (t : Fin cfg0.N) (a : Fin 1) (b : Fin 128) :
    iblk m c 5 t (ix2 a b) = V m c main_arg6 (ix2 a b) := by
  have h := idx5 t
  show V m c main_arg6 (((cfg0.win 5).blk t).view.emb (ix2 a b)) = _
  refine congrArg (V m c main_arg6) (funext fun d => Fin.ext ?_)
  match d with
  | ⟨0, _⟩ => show win0_5.index t (0 : Fin 2) * 1 + 1 * a.val = a.val; rw [h.1]; omega
  | ⟨1, _⟩ => show win0_5.index t (1 : Fin 2) * 128 + 1 * b.val = b.val; rw [h.2]; omega

/-- The previous-neighbour bias row: the window is the whole array at every point. -/
theorem read6 (c : Dev nD) (t : Fin cfg0.N) (a : Fin 1) (b : Fin 128) :
    iblk m c 6 t (ix2 a b) = V m c main_arg7 (ix2 a b) := by
  have h := idx6 t
  show V m c main_arg7 (((cfg0.win 6).blk t).view.emb (ix2 a b)) = _
  refine congrArg (V m c main_arg7) (funext fun d => Fin.ext ?_)
  match d with
  | ⟨0, _⟩ => show win0_6.index t (0 : Fin 2) * 1 + 1 * a.val = a.val; rw [h.1]; omega
  | ⟨1, _⟩ => show win0_6.index t (1 : Fin 2) * 128 + 1 * b.val = b.val; rw [h.2]; omega

/-- The scale row: the window is the whole array at every point. -/
theorem read7 (c : Dev nD) (t : Fin cfg0.N) (a : Fin 1) (b : Fin 128) :
    iblk m c 7 t (ix2 a b) = V m c main_v20 (ix2 a b) := by
  have h := idx7 t
  show V m c main_v20 (((cfg0.win 7).blk t).view.emb (ix2 a b)) = _
  refine congrArg (V m c main_v20) (funext fun d => Fin.ext ?_)
  match d with
  | ⟨0, _⟩ => show win0_7.index t (0 : Fin 2) * 1 + 1 * a.val = a.val; rw [h.1]; omega
  | ⟨1, _⟩ => show win0_7.index t (1 : Fin 2) * 128 + 1 * b.val = b.val; rw [h.2]; omega

/-- The shift row: the window is the whole array at every point. -/
theorem read8 (c : Dev nD) (t : Fin cfg0.N) (a : Fin 1) (b : Fin 128) :
    iblk m c 8 t (ix2 a b) = V m c main_v21 (ix2 a b) := by
  have h := idx8 t
  show V m c main_v21 (((cfg0.win 8).blk t).view.emb (ix2 a b)) = _
  refine congrArg (V m c main_v21) (funext fun d => Fin.ext ?_)
  match d with
  | ⟨0, _⟩ => show win0_8.index t (0 : Fin 2) * 1 + 1 * a.val = a.val; rw [h.1]; omega
  | ⟨1, _⟩ => show win0_8.index t (1 : Fin 2) * 128 + 1 * b.val = b.val; rw [h.2]; omega

/-- The mean row: the window is the whole array at every point. -/
theorem read9 (c : Dev nD) (t : Fin cfg0.N) (a : Fin 1) (b : Fin 128) :
    iblk m c 9 t (ix2 a b) = V m c main_v22 (ix2 a b) := by
  have h := idx9 t
  show V m c main_v22 (((cfg0.win 9).blk t).view.emb (ix2 a b)) = _
  refine congrArg (V m c main_v22) (funext fun d => Fin.ext ?_)
  match d with
  | ⟨0, _⟩ => show win0_9.index t (0 : Fin 2) * 1 + 1 * a.val = a.val; rw [h.1]; omega
  | ⟨1, _⟩ => show win0_9.index t (1 : Fin 2) * 128 + 1 * b.val = b.val; rw [h.2]; omega

/-- The variance row: the window is the whole array at every point. -/
theorem read10 (c : Dev nD) (t : Fin cfg0.N) (a : Fin 1) (b : Fin 128) :
    iblk m c 10 t (ix2 a b) = V m c main_v23 (ix2 a b) := by
  have h := idx10 t
  show V m c main_v23 (((cfg0.win 10).blk t).view.emb (ix2 a b)) = _
  refine congrArg (V m c main_v23) (funext fun d => Fin.ext ?_)
  match d with
  | ⟨0, _⟩ => show win0_10.index t (0 : Fin 2) * 1 + 1 * a.val = a.val; rw [h.1]; omega
  | ⟨1, _⟩ => show win0_10.index t (1 : Fin 2) * 128 + 1 * b.val = b.val; rw [h.2]; omega

/-- The input-gate matrix: the window is the whole array at every point. -/
theorem read11 (c : Dev nD) (t : Fin cfg0.N) (a : Fin 128) (b : Fin 384) :
    iblk m c 11 t (ix2 a b) = V m c main_arg12 (ix2 a b) := by
  have h := idx11 t
  show V m c main_arg12 (((cfg0.win 11).blk t).view.emb (ix2 a b)) = _
  refine congrArg (V m c main_arg12) (funext fun d => Fin.ext ?_)
  match d with
  | ⟨0, _⟩ => show win0_11.index t (0 : Fin 2) * 128 + 1 * a.val = a.val; rw [h.1]; omega
  | ⟨1, _⟩ => show win0_11.index t (1 : Fin 2) * 384 + 1 * b.val = b.val; rw [h.2]; omega

/-- The recurrent-gate matrix: the window is the whole array at every point. -/
theorem read12 (c : Dev nD) (t : Fin cfg0.N) (a : Fin 128) (b : Fin 384) :
    iblk m c 12 t (ix2 a b) = V m c main_arg13 (ix2 a b) := by
  have h := idx12 t
  show V m c main_arg13 (((cfg0.win 12).blk t).view.emb (ix2 a b)) = _
  refine congrArg (V m c main_arg13) (funext fun d => Fin.ext ?_)
  match d with
  | ⟨0, _⟩ => show win0_12.index t (0 : Fin 2) * 128 + 1 * a.val = a.val; rw [h.1]; omega
  | ⟨1, _⟩ => show win0_12.index t (1 : Fin 2) * 384 + 1 * b.val = b.val; rw [h.2]; omega

/-- The two gate bias rows: the window is the whole array at every point. -/
theorem read13 (c : Dev nD) (t : Fin cfg0.N) (a : Fin 2) (b : Fin 384) :
    iblk m c 13 t (ix2 a b) = V m c main_arg14 (ix2 a b) := by
  have h := idx13 t
  show V m c main_arg14 (((cfg0.win 13).blk t).view.emb (ix2 a b)) = _
  refine congrArg (V m c main_arg14) (funext fun d => Fin.ext ?_)
  match d with
  | ⟨0, _⟩ => show win0_13.index t (0 : Fin 2) * 2 + 1 * a.val = a.val; rw [h.1]; omega
  | ⟨1, _⟩ => show win0_13.index t (1 : Fin 2) * 384 + 1 * b.val = b.val; rw [h.2]; omega

/-- Entry (p, q) of the output's block `t` is entry (3200·t + p, q) of the output array. -/
theorem emb14 (t : Fin cfg0.N) (p : Fin 3200) (q : Fin 128) :
    ((cfg0.win 14).blk t).view.emb (ix2 p q) = ix2 (rowOf t p) q := by
  have h := idx14 t
  refine funext fun d => Fin.ext ?_
  match d with
  | ⟨0, _⟩ => show win0_14.index t (0 : Fin 2) * 3200 + 1 * p.val = t.val * 3200 + p.val; rw [h.1]; omega
  | ⟨1, _⟩ => show win0_14.index t (1 : Fin 2) * 128 + 1 * q.val = q.val; rw [h.2]; omega

/-! ## The output array -/

/-- What the output array ends holding: the bond update of the gathered arrays and the arguments. -/
def G (c : Dev nD) : S400000x128.Idx → EReal :=
  updated (neighbours (m ((c : Thread nD τ).loc main_arg0)) (m ((c : Thread nD τ).loc main_arg2))) (neighbours (m ((c : Thread nD τ).loc main_arg0)) (m ((c : Thread nD τ).loc main_arg3))) (m ((c : Thread nD τ).loc main_arg1)) (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- What point `t` writes back is block `t` of `G`. -/
theorem flushed_eq (c : Dev nD) (t : Fin cfg0.N) :
    (dats m 0 c).flushed 14 t = ((cfg0.win 14).blk t).view.read (Elt Ideal) (G m c) := by
  rw [Value.flushed14]
  unfold out0_14
  rw [View.canon_unit_zero hz]
  simp only [View.ld_unit_zero (S := S3200x128) hz, View.ld_unit_zero (S := S128x128) hz, View.ld_unit_zero (S := S1x128) hz,
    View.ld_unit_zero (S := S128x384) hz, View.ld_unit_zero (S := S2x384) hz]
  funext j
  obtain ⟨p, q, rfl⟩ : ∃ (p : Fin 3200) (q : Fin 128), j = ix2 p q := ⟨j 0, j 1, eq_ix2 j⟩
  show k0_pay1 (iblk m c 2 t) (k0_pay2 (iblk m c 2 t)) (k0_pay3 (iblk m c 7 t)) (k0_pay4 (iblk m c 8 t)) (k0_pay5 (iblk m c 10 t))
      (k0_pay6 (iblk m c 0 t) (iblk m c 1 t) (iblk m c 2 t) (iblk m c 3 t) (iblk m c 4 t) (iblk m c 5 t) (iblk m c 6 t) (iblk m c 9 t))
      (Scalar.ofBits .f32 0x3A83126F#32) (iblk m c 11 t) (iblk m c 12 t) (iblk m c 13 t) (ix2 p q)
    = G m c (((cfg0.win 14).blk t).view.emb (ix2 p q))
  rw [emb14 t p q]
  refine (Cert.KernelIdeal.Cell.block_entry (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t) (iblk m c 13 t) p q).trans ?_
  unfold G
  rw [updated_ix2]
  have e0 : ∀ k, iblk m c 0 t (ix2 p k) = neighbours (m ((c : Thread nD τ).loc main_arg0)) (m ((c : Thread nD τ).loc main_arg2)) (ix2 (rowOf t p) k) :=
    fun k => by rw [read0 m c t p k, V_v9]
  have e1 : ∀ k, iblk m c 1 t (ix2 p k) = neighbours (m ((c : Thread nD τ).loc main_arg0)) (m ((c : Thread nD τ).loc main_arg3)) (ix2 (rowOf t p) k) :=
    fun k => by rw [read1 m c t p k, V_v19]
  have e2 : ∀ k, iblk m c 2 t (ix2 p k) = (m ((c : Thread nD τ).loc main_arg1)) (ix2 (rowOf t p) k) := fun k => by rw [read2 m c t p k, V_main_arg1]
  have e3 : ∀ k j, iblk m c 3 t (ix2 k j) = (m ((c : Thread nD τ).loc main_arg4)) (ix2 k j) := fun k j => by rw [read3 m c t k j, V_main_arg4]
  have e4 : ∀ k j, iblk m c 4 t (ix2 k j) = (m ((c : Thread nD τ).loc main_arg5)) (ix2 k j) := fun k j => by rw [read4 m c t k j, V_main_arg5]
  have e5 : ∀ j, iblk m c 5 t (ix2 (0 : Fin 1) j) = (m ((c : Thread nD τ).loc main_arg6)) (ix2 (0 : Fin 1) j) := fun j => by rw [read5 m c t 0 j, V_main_arg6]
  have e6 : ∀ j, iblk m c 6 t (ix2 (0 : Fin 1) j) = (m ((c : Thread nD τ).loc main_arg7)) (ix2 (0 : Fin 1) j) := fun j => by rw [read6 m c t 0 j, V_main_arg7]
  have e7 : ∀ j, iblk m c 7 t (ix2 (0 : Fin 1) j) = (m ((c : Thread nD τ).loc main_arg8)) (ix1 j) :=
    fun j => by rw [read7 m c t 0 j, V_v20]; exact shapeCast_a_1a_apply _ _ 0 j
  have e8 : ∀ j, iblk m c 8 t (ix2 (0 : Fin 1) j) = (m ((c : Thread nD τ).loc main_arg9)) (ix1 j) :=
    fun j => by rw [read8 m c t 0 j, V_v21]; exact shapeCast_a_1a_apply _ _ 0 j
  have e9 : ∀ j, iblk m c 9 t (ix2 (0 : Fin 1) j) = (m ((c : Thread nD τ).loc main_arg10)) (ix1 j) :=
    fun j => by rw [read9 m c t 0 j, V_v22]; exact shapeCast_a_1a_apply _ _ 0 j
  have e10 : ∀ j, iblk m c 10 t (ix2 (0 : Fin 1) j) = (m ((c : Thread nD τ).loc main_arg11)) (ix1 j) :=
    fun j => by rw [read10 m c t 0 j, V_v23]; exact shapeCast_a_1a_apply _ _ 0 j
  have e11 : ∀ k j, iblk m c 11 t (ix2 k j) = (m ((c : Thread nD τ).loc main_arg12)) (ix2 k j) := fun k j => by rw [read11 m c t k j, V_main_arg12]
  have e12 : ∀ k j, iblk m c 12 t (ix2 k j) = (m ((c : Thread nD τ).loc main_arg13)) (ix2 k j) := fun k j => by rw [read12 m c t k j, V_main_arg13]
  have e13 : ∀ (o : Fin 2) j, iblk m c 13 t (ix2 o j) = (m ((c : Thread nD τ).loc main_arg14)) (ix2 o j) := fun o j => by rw [read13 m c t o j, V_main_arg14]
  simp only [e0, e1, e2, e3, e4, e5, e6, e7, e8, e9, e10, e11, e12, e13]

/-- An index of the output array is in point `t`'s block iff each coordinate is in the block's range on its axis. -/
theorem mem_blk (t : Fin cfg0.N) (i : S400000x128.Idx) :
    i ∈ ((cfg0.win 14).blk t).view.set ↔ ∀ a : Fin 2, win0_14.index t a * S3200x128.size a ≤ (i a).val ∧ (i a).val < win0_14.index t a * S3200x128.size a + S3200x128.size a := by
  show i ∈ ((View.whole main_v24).slice (win0_14.rect t)).set ↔ _
  rw [View.set_slice_whole, Rect.mem_set_unit]
  exact Iff.rfl

/-- Every row of the output lies in the block of the point numbered row / 3200. -/
theorem cover (i : S400000x128.Idx) : ∃ t : Fin cfg0.N, (cfg0.win 14).flush t = true ∧ i ∈ ((cfg0.win 14).blk t).view.set := by
  have hi0 : (i 0).val < 400000 := (i 0).isLt
  have hi1 : (i 1).val < 128 := (i 1).isLt
  have ht : (i 0).val / 3200 < cfg0.N := by
    have : (i 0).val / 3200 < 125 := by omega
    exact lt_of_lt_of_eq this N_0.symm
  obtain ⟨e0, e1⟩ := idx14 ⟨(i 0).val / 3200, ht⟩
  refine ⟨⟨(i 0).val / 3200, ht⟩, flush0_14 _, ?_⟩
  rw [mem_blk]
  intro a
  match a with
  | ⟨0, _⟩ =>
    show win0_14.index ⟨(i 0).val / 3200, ht⟩ (0 : Fin 2) * 3200 ≤ (i 0).val ∧ (i 0).val < win0_14.index ⟨(i 0).val / 3200, ht⟩ (0 : Fin 2) * 3200 + 3200
    rw [e0]; show (i 0).val / 3200 * 3200 ≤ (i 0).val ∧ (i 0).val < (i 0).val / 3200 * 3200 + 3200; omega
  | ⟨1, _⟩ =>
    show win0_14.index ⟨(i 0).val / 3200, ht⟩ (1 : Fin 2) * 128 ≤ (i 1).val ∧ (i 1).val < win0_14.index ⟨(i 0).val / 3200, ht⟩ (1 : Fin 2) * 128 + 128
    rw [e1]; omega

/-- The output array after the run. -/
theorem final (c : Dev nD) : (dats m 0 c).arrAt 14 cfg0.N = G m c :=
  (dats m 0 c).arrAt_eq_of_cover 14 (G m c) (fun t _ => flushed_eq m c t) cover

/-- The kernel's run: the result array ends as the bond update of the gathered arrays, the arguments unchanged. -/
theorem run : θ_run defs (onTc (τ := τ) (main (F := Ideal))) ⟨m, fun _ => 0, ρ⟩ fun r => ∀ c : Dev nD,
      r.2.mem ((c : Thread nD τ).loc main_v24) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final m c), (h c).2⟩) (Value.run_blocks m ρ)

end Cert.KernelIdeal.Whole

end
-- ==== Proof.ReferenceCell.lean ====
/-
  The reference program's result, read at one entry.

  The reference works on all 400000 edges at once. Read at edge `e` and lane `q`, its result is the bond update's
  entry of row `e` of the two gathered arrays and of the bond features: the same sums of 128 products, the same
  normalisation, the same thirds of the 384 pre-activations. Its sigmoid is spelt 1 / (1 + e^(−x)), which is the
  logistic function.
-/
import proofs.«142706_j5995774345719_2_alg».proof.Proof.Gen.ReferenceIdeal.Read
import proofs.«142706_j5995774345719_2_alg».proof.Proof.BondUpdate
import proofs.«142706_j5995774345719_2_alg».proof.Proof.LibDotRows
import Idealize.ShloMosaic.Lib.ValueIdx

noncomputable section

open scoped BigOperators

namespace Cert.ReferenceIdeal.Cell

open Cert.ReferenceIdeal Cert.ReferenceIdeal.Gen Cert.ReferenceIdeal.Read Idealize.ShloMosaic Idealize.ShloMosaic.TcCoe
open Idealize.ShloMosaic.ValueIdx Cert.BondUpdate

/-! ## The stages that are not pointwise, read at an entry -/

/-- The bias row of the next-neighbour branch, spread over the edges. -/
theorem v20_at (x6 : (⟨S1x128, .f32⟩ : BufTy).Contents (Elt Ideal)) (e : Fin 400000) (q : Fin 128) :
    val_main_v20 (F := Ideal) x6 (ix2 e q) = x6 (ix2 (0 : Fin 1) q) :=
  (val_main_v20_apply x6 (ix2 e q)).trans (congrArg x6 (funext fun a => Fin.ext (by match a with | ⟨0, _⟩ => rfl | ⟨1, _⟩ => rfl)))

/-- The bias row of the previous-neighbour branch, spread over the edges. -/
theorem v24_at (x7 : (⟨S1x128, .f32⟩ : BufTy).Contents (Elt Ideal)) (e : Fin 400000) (q : Fin 128) :
    val_main_v24 (F := Ideal) x7 (ix2 e q) = x7 (ix2 (0 : Fin 1) q) :=
  (val_main_v24_apply x7 (ix2 e q)).trans (congrArg x7 (funext fun a => Fin.ext (by match a with | ⟨0, _⟩ => rfl | ⟨1, _⟩ => rfl)))

/-- The stored mean, given a unit axis and spread over the edges, read at (e, q). -/
theorem v29_at (x10 : (⟨S128, .f32⟩ : BufTy).Contents (Elt Ideal)) (e : Fin 400000) (q : Fin 128) :
    val_main_v29 (F := Ideal) x10 (ix2 e q) = x10 (ix1 q) :=
  (val_main_v29_apply x10 (ix2 e q)).trans ((val_main_v28_apply x10 _).trans
    (congrArg x10 (funext fun a => Fin.ext (by match a with | ⟨0, _⟩ => rfl))))

/-- The scale, given a unit axis and spread over the edges, read at (e, q). -/
theorem v38_at (x8 : (⟨S128, .f32⟩ : BufTy).Contents (Elt Ideal)) (e : Fin 400000) (q : Fin 128) :
    val_main_v38 (F := Ideal) x8 (ix2 e q) = x8 (ix1 q) :=
  (val_main_v38_apply x8 (ix2 e q)).trans ((val_main_v37_apply x8 _).trans
    (congrArg x8 (funext fun a => Fin.ext (by match a with | ⟨0, _⟩ => rfl))))

/-- The shift, given a unit axis and spread over the edges, read at (e, q). -/
theorem v41_at (x9 : (⟨S128, .f32⟩ : BufTy).Contents (Elt Ideal)) (e : Fin 400000) (q : Fin 128) :
    val_main_v41 (F := Ideal) x9 (ix2 e q) = x9 (ix1 q) :=
  (val_main_v41_apply x9 (ix2 e q)).trans ((val_main_v40_apply x9 _).trans
    (congrArg x9 (funext fun a => Fin.ext (by match a with | ⟨0, _⟩ => rfl))))

/-- The reciprocal square root of the offset variance, given a unit axis and spread over the edges, read at (e, q). -/
theorem v35_at (x11 : (⟨S128, .f32⟩ : BufTy).Contents (Elt Ideal)) (e : Fin 400000) (q : Fin 128) :
    val_main_v35 (F := Ideal) x11 (ix2 e q) = Ideal.rsqrt (x11 (ix1 q) + eps) :=
  (val_main_v35_apply x11 (ix2 e q)).trans ((val_main_v34_apply x11 _).trans
    (congrArg (val_main_v33 (F := Ideal) x11) (funext fun a => Fin.ext (by match a with | ⟨0, _⟩ => rfl)) : _ = val_main_v33 (F := Ideal) x11 (ix1 q)))

/-- Row 0 of the [2, 384] bias, cut out, flattened, given back its unit axis and spread over the edges. -/
theorem v49_at (x14 : (⟨S2x384, .f32⟩ : BufTy).Contents (Elt Ideal)) (e : Fin 400000) (j : Fin 384) :
    val_main_v49 (F := Ideal) x14 (ix2 e j) = x14 (ix2 (0 : Fin 2) j) :=
  (val_main_v49_apply x14 (ix2 e j)).trans ((val_main_v48_apply x14 _).trans ((val_main_v44_apply x14 _).trans
    ((val_main_v43_apply x14 _).trans (congrArg x14 (funext fun a => Fin.ext (by
      match a with
      | ⟨0, _⟩ => rfl
      | ⟨1, _⟩ => exact Nat.mod_eq_of_lt j.isLt))))))

/-- Row 1 of the [2, 384] bias, cut out, flattened, given back its unit axis and spread over the edges. -/
theorem v53_at (x14 : (⟨S2x384, .f32⟩ : BufTy).Contents (Elt Ideal)) (e : Fin 400000) (j : Fin 384) :
    val_main_v53 (F := Ideal) x14 (ix2 e j) = x14 (ix2 (1 : Fin 2) j) :=
  (val_main_v53_apply x14 (ix2 e j)).trans ((val_main_v52_apply x14 _).trans ((val_main_v46_apply x14 _).trans
    ((val_main_v45_apply x14 _).trans (congrArg x14 (funext fun a => Fin.ext (by
      match a with
      | ⟨0, _⟩ => rfl
      | ⟨1, _⟩ => exact Nat.mod_eq_of_lt j.isLt))))))

/-- Entry (e, q) of the next-neighbour product. -/
theorem v19_at (x0 x1 : (⟨S400000x128, .f32⟩ : BufTy).Contents (Elt Ideal)) (x2 : (⟨S400000x2, .i32⟩ : BufTy).Contents (Elt Ideal))
    (x4 : (⟨S128x128, .f32⟩ : BufTy).Contents (Elt Ideal)) (e : Fin 400000) (q : Fin 128) :
    val_main_v19 (F := Ideal) x0 x1 x2 x4 (ix2 e q) = ∑ k : Fin 128, val_main_v18 (F := Ideal) x0 x1 x2 (ix2 e k) * x4 (ix2 k q) :=
  Cert.Lib.DotRows.dotGeneral_plain_apply (val_main_v18 (F := Ideal) x0 x1 x2) x4 e q

/-- Entry (e, q) of the previous-neighbour product. -/
theorem v23_at (x0 x1 : (⟨S400000x128, .f32⟩ : BufTy).Contents (Elt Ideal)) (x3 : (⟨S400000x2, .i32⟩ : BufTy).Contents (Elt Ideal))
    (x5 : (⟨S128x128, .f32⟩ : BufTy).Contents (Elt Ideal)) (e : Fin 400000) (q : Fin 128) :
    val_main_v23 (F := Ideal) x0 x1 x3 x5 (ix2 e q) = ∑ k : Fin 128, val_main_v22 (F := Ideal) x0 x1 x3 (ix2 e k) * x5 (ix2 k q) :=
  Cert.Lib.DotRows.dotGeneral_plain_apply (val_main_v22 (F := Ideal) x0 x1 x3) x5 e q

/-- Entry (e, j) of the input-gate product. -/
theorem v47_at (x0 x1 : (⟨S400000x128, .f32⟩ : BufTy).Contents (Elt Ideal)) (x2 x3 : (⟨S400000x2, .i32⟩ : BufTy).Contents (Elt Ideal)) (x4 x5 : (⟨S128x128, .f32⟩ : BufTy).Contents (Elt Ideal)) (x6 x7 : (⟨S1x128, .f32⟩ : BufTy).Contents (Elt Ideal)) (x8 x9 x10 x11 : (⟨S128, .f32⟩ : BufTy).Contents (Elt Ideal)) (x12 : (⟨S128x384, .f32⟩ : BufTy).Contents (Elt Ideal)) (e : Fin 400000) (j : Fin 384) :
    val_main_v47 (F := Ideal) x0 x1 x2 x3 x4 x5 x6 x7 x8 x9 x10 x11 x12 (ix2 e j) = ∑ k : Fin 128, val_main_v42 (F := Ideal) x0 x1 x2 x3 x4 x5 x6 x7 x8 x9 x10 x11 (ix2 e k) * x12 (ix2 k j) :=
  Cert.Lib.DotRows.dotGeneral_plain_apply (val_main_v42 (F := Ideal) x0 x1 x2 x3 x4 x5 x6 x7 x8 x9 x10 x11) x12 e j

/-- Entry (e, j) of the recurrent-gate product. -/
theorem v51_at (x1 : (⟨S400000x128, .f32⟩ : BufTy).Contents (Elt Ideal)) (x13 : (⟨S128x384, .f32⟩ : BufTy).Contents (Elt Ideal))
    (e : Fin 400000) (j : Fin 384) :
    val_main_v51 (F := Ideal) x1 x13 (ix2 e j) = ∑ k : Fin 128, x1 (ix2 e k) * x13 (ix2 k j) :=
  Cert.Lib.DotRows.dotGeneral_plain_apply x1 x13 e j

/-- Lanes 0 … 127 of a pre-activation row. -/
theorem v55_at (x0 x1 : (⟨S400000x128, .f32⟩ : BufTy).Contents (Elt Ideal)) (x2 x3 : (⟨S400000x2, .i32⟩ : BufTy).Contents (Elt Ideal)) (x4 x5 : (⟨S128x128, .f32⟩ : BufTy).Contents (Elt Ideal)) (x6 x7 : (⟨S1x128, .f32⟩ : BufTy).Contents (Elt Ideal)) (x8 x9 x10 x11 : (⟨S128, .f32⟩ : BufTy).Contents (Elt Ideal)) (x12 : (⟨S128x384, .f32⟩ : BufTy).Contents (Elt Ideal)) (x14 : (⟨S2x384, .f32⟩ : BufTy).Contents (Elt Ideal)) (e : Fin 400000) (q : Fin 128) :
    val_main_v55 (F := Ideal) x0 x1 x2 x3 x4 x5 x6 x7 x8 x9 x10 x11 x12 x14 (ix2 e q) = val_main_v50 (F := Ideal) x0 x1 x2 x3 x4 x5 x6 x7 x8 x9 x10 x11 x12 x14 (ix2 e (third 0 (by omega) q)) :=
  (val_main_v55_apply x0 x1 x2 x3 x4 x5 x6 x7 x8 x9 x10 x11 x12 x14 (ix2 e q)).trans (congrArg (val_main_v50 (F := Ideal) x0 x1 x2 x3 x4 x5 x6 x7 x8 x9 x10 x11 x12 x14)
    (funext fun a => Fin.ext (by match a with | ⟨0, _⟩ => rfl | ⟨1, _⟩ => exact (Nat.zero_add _).symm)))

/-- Lanes 128 … 255 of a pre-activation row. -/
theorem v56_at (x0 x1 : (⟨S400000x128, .f32⟩ : BufTy).Contents (Elt Ideal)) (x2 x3 : (⟨S400000x2, .i32⟩ : BufTy).Contents (Elt Ideal)) (x4 x5 : (⟨S128x128, .f32⟩ : BufTy).Contents (Elt Ideal)) (x6 x7 : (⟨S1x128, .f32⟩ : BufTy).Contents (Elt Ideal)) (x8 x9 x10 x11 : (⟨S128, .f32⟩ : BufTy).Contents (Elt Ideal)) (x12 : (⟨S128x384, .f32⟩ : BufTy).Contents (Elt Ideal)) (x14 : (⟨S2x384, .f32⟩ : BufTy).Contents (Elt Ideal)) (e : Fin 400000) (q : Fin 128) :
    val_main_v56 (F := Ideal) x0 x1 x2 x3 x4 x5 x6 x7 x8 x9 x10 x11 x12 x14 (ix2 e q) = val_main_v50 (F := Ideal) x0 x1 x2 x3 x4 x5 x6 x7 x8 x9 x10 x11 x12 x14 (ix2 e (third 128 (by omega) q)) :=
  (val_main_v56_apply x0 x1 x2 x3 x4 x5 x6 x7 x8 x9 x10 x11 x12 x14 (ix2 e q)).trans (congrArg (val_main_v50 (F := Ideal) x0 x1 x2 x3 x4 x5 x6 x7 x8 x9 x10 x11 x12 x14)
    (funext fun a => Fin.ext (by match a with | ⟨0, _⟩ => rfl | ⟨1, _⟩ => rfl)))

/-- Lanes 256 … 383 of a pre-activation row. -/
theorem v57_at (x0 x1 : (⟨S400000x128, .f32⟩ : BufTy).Contents (Elt Ideal)) (x2 x3 : (⟨S400000x2, .i32⟩ : BufTy).Contents (Elt Ideal)) (x4 x5 : (⟨S128x128, .f32⟩ : BufTy).Contents (Elt Ideal)) (x6 x7 : (⟨S1x128, .f32⟩ : BufTy).Contents (Elt Ideal)) (x8 x9 x10 x11 : (⟨S128, .f32⟩ : BufTy).Contents (Elt Ideal)) (x12 : (⟨S128x384, .f32⟩ : BufTy).Contents (Elt Ideal)) (x14 : (⟨S2x384, .f32⟩ : BufTy).Contents (Elt Ideal)) (e : Fin 400000) (q : Fin 128) :
    val_main_v57 (F := Ideal) x0 x1 x2 x3 x4 x5 x6 x7 x8 x9 x10 x11 x12 x14 (ix2 e q) = val_main_v50 (F := Ideal) x0 x1 x2 x3 x4 x5 x6 x7 x8 x9 x10 x11 x12 x14 (ix2 e (third 256 (by omega) q)) :=
  (val_main_v57_apply x0 x1 x2 x3 x4 x5 x6 x7 x8 x9 x10 x11 x12 x14 (ix2 e q)).trans (congrArg (val_main_v50 (F := Ideal) x0 x1 x2 x3 x4 x5 x6 x7 x8 x9 x10 x11 x12 x14)
    (funext fun a => Fin.ext (by match a with | ⟨0, _⟩ => rfl | ⟨1, _⟩ => rfl)))

/-- Lanes 0 … 127 of a recurrent pre-activation row. -/
theorem v58_at (x1 : (⟨S400000x128, .f32⟩ : BufTy).Contents (Elt Ideal)) (x13 : (⟨S128x384, .f32⟩ : BufTy).Contents (Elt Ideal))
    (x14 : (⟨S2x384, .f32⟩ : BufTy).Contents (Elt Ideal)) (e : Fin 400000) (q : Fin 128) :
    val_main_v58 (F := Ideal) x1 x13 x14 (ix2 e q) = val_main_v54 (F := Ideal) x1 x13 x14 (ix2 e (third 0 (by omega) q)) :=
  (val_main_v58_apply x1 x13 x14 (ix2 e q)).trans (congrArg (val_main_v54 (F := Ideal) x1 x13 x14)
    (funext fun a => Fin.ext (by match a with | ⟨0, _⟩ => rfl | ⟨1, _⟩ => exact (Nat.zero_add _).symm)))

/-- Lanes 128 … 255 of a recurrent pre-activation row. -/
theorem v59_at (x1 : (⟨S400000x128, .f32⟩ : BufTy).Contents (Elt Ideal)) (x13 : (⟨S128x384, .f32⟩ : BufTy).Contents (Elt Ideal))
    (x14 : (⟨S2x384, .f32⟩ : BufTy).Contents (Elt Ideal)) (e : Fin 400000) (q : Fin 128) :
    val_main_v59 (F := Ideal) x1 x13 x14 (ix2 e q) = val_main_v54 (F := Ideal) x1 x13 x14 (ix2 e (third 128 (by omega) q)) :=
  (val_main_v59_apply x1 x13 x14 (ix2 e q)).trans (congrArg (val_main_v54 (F := Ideal) x1 x13 x14)
    (funext fun a => Fin.ext (by match a with | ⟨0, _⟩ => rfl | ⟨1, _⟩ => rfl)))

/-- Lanes 256 … 383 of a recurrent pre-activation row. -/
theorem v60_at (x1 : (⟨S400000x128, .f32⟩ : BufTy).Contents (Elt Ideal)) (x13 : (⟨S128x384, .f32⟩ : BufTy).Contents (Elt Ideal))
    (x14 : (⟨S2x384, .f32⟩ : BufTy).Contents (Elt Ideal)) (e : Fin 400000) (q : Fin 128) :
    val_main_v60 (F := Ideal) x1 x13 x14 (ix2 e q) = val_main_v54 (F := Ideal) x1 x13 x14 (ix2 e (third 256 (by omega) q)) :=
  (val_main_v60_apply x1 x13 x14 (ix2 e q)).trans (congrArg (val_main_v54 (F := Ideal) x1 x13 x14)
    (funext fun a => Fin.ext (by match a with | ⟨0, _⟩ => rfl | ⟨1, _⟩ => rfl)))

/-! ## The staged values -/

/-- The rectified aggregated message of edge `e` at lane `q`. -/
theorem agg_at (x0 x1 : (⟨S400000x128, .f32⟩ : BufTy).Contents (Elt Ideal)) (x2 x3 : (⟨S400000x2, .i32⟩ : BufTy).Contents (Elt Ideal))
    (x4 x5 : (⟨S128x128, .f32⟩ : BufTy).Contents (Elt Ideal)) (x6 x7 : (⟨S1x128, .f32⟩ : BufTy).Contents (Elt Ideal))
    (e : Fin 400000) (q : Fin 128) :
    val_main_v27 (F := Ideal) x0 x1 x2 x3 x4 x5 x6 x7 (ix2 e q) = (agg (fun k => val_main_v8 (F := Ideal) x0 x2 (ix2 e k)) (fun k => val_main_v17 (F := Ideal) x0 x3 (ix2 e k)) (fun k => x1 (ix2 e k))
          (fun k j => x4 (ix2 k j)) (fun k j => x5 (ix2 k j)) (fun j => x6 (ix2 (0 : Fin 1) j)) (fun j => x7 (ix2 (0 : Fin 1) j))) q := by
  unfold agg
  simp only [val_main_v27_apply, val_main_v26_apply, val_main_v21_apply, val_main_v25_apply, v19_at, v23_at, v20_at, v24_at,
    val_main_v18_apply, val_main_v22_apply]
  rfl

/-- The normalised message of edge `e` at lane `k`. -/
theorem norm_at (x0 x1 : (⟨S400000x128, .f32⟩ : BufTy).Contents (Elt Ideal)) (x2 x3 : (⟨S400000x2, .i32⟩ : BufTy).Contents (Elt Ideal)) (x4 x5 : (⟨S128x128, .f32⟩ : BufTy).Contents (Elt Ideal)) (x6 x7 : (⟨S1x128, .f32⟩ : BufTy).Contents (Elt Ideal)) (x8 x9 x10 x11 : (⟨S128, .f32⟩ : BufTy).Contents (Elt Ideal)) (e : Fin 400000) (k : Fin 128) :
    val_main_v42 (F := Ideal) x0 x1 x2 x3 x4 x5 x6 x7 x8 x9 x10 x11 (ix2 e k) = (normed (agg (fun k => val_main_v8 (F := Ideal) x0 x2 (ix2 e k)) (fun k => val_main_v17 (F := Ideal) x0 x3 (ix2 e k)) (fun k => x1 (ix2 e k))
          (fun k j => x4 (ix2 k j)) (fun k j => x5 (ix2 k j)) (fun j => x6 (ix2 (0 : Fin 1) j)) (fun j => x7 (ix2 (0 : Fin 1) j)))
          (fun j => x8 (ix1 j)) (fun j => x9 (ix1 j)) (fun j => x10 (ix1 j)) (fun j => x11 (ix1 j))) k := by
  unfold normed
  simp only [val_main_v42_apply, val_main_v39_apply, val_main_v36_apply, val_main_v30_apply, agg_at, v29_at, v35_at, v38_at, v41_at]
  rfl

/-- The input pre-activations of edge `e`. -/
theorem mx_at (x0 x1 : (⟨S400000x128, .f32⟩ : BufTy).Contents (Elt Ideal)) (x2 x3 : (⟨S400000x2, .i32⟩ : BufTy).Contents (Elt Ideal)) (x4 x5 : (⟨S128x128, .f32⟩ : BufTy).Contents (Elt Ideal)) (x6 x7 : (⟨S1x128, .f32⟩ : BufTy).Contents (Elt Ideal)) (x8 x9 x10 x11 : (⟨S128, .f32⟩ : BufTy).Contents (Elt Ideal)) (x12 : (⟨S128x384, .f32⟩ : BufTy).Contents (Elt Ideal)) (x14 : (⟨S2x384, .f32⟩ : BufTy).Contents (Elt Ideal)) (e : Fin 400000) (j : Fin 384) :
    val_main_v50 (F := Ideal) x0 x1 x2 x3 x4 x5 x6 x7 x8 x9 x10 x11 x12 x14 (ix2 e j)
      = pre (normed (agg (fun k => val_main_v8 (F := Ideal) x0 x2 (ix2 e k)) (fun k => val_main_v17 (F := Ideal) x0 x3 (ix2 e k)) (fun k => x1 (ix2 e k))
          (fun k j => x4 (ix2 k j)) (fun k j => x5 (ix2 k j)) (fun j => x6 (ix2 (0 : Fin 1) j)) (fun j => x7 (ix2 (0 : Fin 1) j)))
          (fun j => x8 (ix1 j)) (fun j => x9 (ix1 j)) (fun j => x10 (ix1 j)) (fun j => x11 (ix1 j))) (fun k j => x12 (ix2 k j)) (fun j => x14 (ix2 (0 : Fin 2) j)) j := by
  unfold pre
  simp only [val_main_v50_apply, v47_at, v49_at, norm_at]
  rfl

/-- The recurrent pre-activations of edge `e`. -/
theorem mh_at (x1 : (⟨S400000x128, .f32⟩ : BufTy).Contents (Elt Ideal)) (x13 : (⟨S128x384, .f32⟩ : BufTy).Contents (Elt Ideal))
    (x14 : (⟨S2x384, .f32⟩ : BufTy).Contents (Elt Ideal)) (e : Fin 400000) (j : Fin 384) :
    val_main_v54 (F := Ideal) x1 x13 x14 (ix2 e j)
      = pre (fun k => x1 (ix2 e k)) (fun k j => x13 (ix2 k j)) (fun j => x14 (ix2 (1 : Fin 2) j)) j := by
  unfold pre
  simp only [val_main_v54_apply, v51_at, v53_at]
  rfl

/-- The reference's result at (e, q) is the gated unit's output on the two pre-activation rows of edge `e`. -/
theorem gru_at (x0 x1 : (⟨S400000x128, .f32⟩ : BufTy).Contents (Elt Ideal)) (x2 x3 : (⟨S400000x2, .i32⟩ : BufTy).Contents (Elt Ideal)) (x4 x5 : (⟨S128x128, .f32⟩ : BufTy).Contents (Elt Ideal)) (x6 x7 : (⟨S1x128, .f32⟩ : BufTy).Contents (Elt Ideal)) (x8 x9 x10 x11 : (⟨S128, .f32⟩ : BufTy).Contents (Elt Ideal)) (x12 x13 : (⟨S128x384, .f32⟩ : BufTy).Contents (Elt Ideal)) (x14 : (⟨S2x384, .f32⟩ : BufTy).Contents (Elt Ideal)) (e : Fin 400000) (q : Fin 128) :
    val_main_v82 (F := Ideal) x0 x1 x2 x3 x4 x5 x6 x7 x8 x9 x10 x11 x12 x13 x14 (ix2 e q)
      = gru (fun k => x1 (ix2 e k)) (fun j => val_main_v50 (F := Ideal) x0 x1 x2 x3 x4 x5 x6 x7 x8 x9 x10 x11 x12 x14 (ix2 e j))
          (fun j => val_main_v54 (F := Ideal) x1 x13 x14 (ix2 e j)) q := by
  have h1 : ∀ i, val_main_v64 (F := Ideal) i = one := fun _ => rfl
  have h2 : ∀ i, val_main_v66 (F := Ideal) i = one := fun _ => rfl
  have h3 : ∀ i, val_main_v71 (F := Ideal) i = one := fun _ => rfl
  have h4 : ∀ i, val_main_v73 (F := Ideal) i = one := fun _ => rfl
  have h5 : ∀ i, val_main_v79 (F := Ideal) i = one := fun _ => rfl
  unfold gru
  simp only [val_main_v82_apply, val_main_v81_apply, val_main_v80_apply, val_main_v78_apply, val_main_v77_apply, val_main_v76_apply,
    val_main_v75_apply, val_main_v74_apply, val_main_v72_apply, val_main_v70_apply, val_main_v69_apply, val_main_v68_apply,
    val_main_v67_apply, val_main_v65_apply, val_main_v63_apply, val_main_v62_apply, val_main_v61_apply,
    v55_at, v56_at, v57_at, v58_at, v59_at, v60_at, h1, h2, h3, h4, h5,
    Ideal.addf_def, Ideal.subf_def, Ideal.mulf_def, Ideal.hostDivf_def, Ideal.hostUnary_exp_def, Ideal.hostUnary_tanh_def,
    Ideal.hostNegf_def, Ideal.negf_def, sigmoid_eq]

/-- The reference's whole result is the bond update of the gathered arrays and the arguments. -/
theorem result_eq (x0 x1 : (⟨S400000x128, .f32⟩ : BufTy).Contents (Elt Ideal)) (x2 x3 : (⟨S400000x2, .i32⟩ : BufTy).Contents (Elt Ideal)) (x4 x5 : (⟨S128x128, .f32⟩ : BufTy).Contents (Elt Ideal)) (x6 x7 : (⟨S1x128, .f32⟩ : BufTy).Contents (Elt Ideal)) (x8 x9 x10 x11 : (⟨S128, .f32⟩ : BufTy).Contents (Elt Ideal)) (x12 x13 : (⟨S128x384, .f32⟩ : BufTy).Contents (Elt Ideal)) (x14 : (⟨S2x384, .f32⟩ : BufTy).Contents (Elt Ideal)) :
    val_main_v82 (F := Ideal) x0 x1 x2 x3 x4 x5 x6 x7 x8 x9 x10 x11 x12 x13 x14
      = updated (val_main_v8 (F := Ideal) x0 x2) (val_main_v17 (F := Ideal) x0 x3) x1 x4 x5 x6 x7 x8 x9 x10 x11 x12 x13 x14 := by
  funext i
  obtain ⟨e, q, rfl⟩ : ∃ (e : Fin 400000) (q : Fin 128), i = ix2 e q := ⟨i 0, i 1, eq_ix2 i⟩
  rw [updated_ix2, gru_at]
  unfold cell
  congr 1
  · funext j; exact mx_at x0 x1 x2 x3 x4 x5 x6 x7 x8 x9 x10 x11 x12 x14 e j
  · funext j; exact mh_at x1 x13 x14 e j

end Cert.ReferenceIdeal.Cell

end
-- ==== Proof.lean ====
/-
  The bond message-passing layer: a blocked kernel against its whole-array reference, over the extended reals.

  Both programs gather, for every edge, the node-feature rows named by the last column of two pair tables, add the
  edge's bond row to each, multiply by a 128×128 matrix and add a bias row, add the two, rectify, normalise with stored
  statistics (subtract the mean, multiply by the reciprocal square root of the variance plus 1e-3, scale, shift), and
  feed the result and the bond row to a gated recurrent unit: two 128×384 products plus bias rows, cut into three
  128-lane thirds, z = σ(x_z + h_z), r = σ(x_r + h_r), h = tanh(x_h + r·h_h), out = z·bond + (1 − z)·h.

  The kernel does this on 125 blocks of 3200 edges, after the host has done the two gathers; the reference does it on
  all 400000 edges at once. Over the extended reals a change of float format is the identity, so operation by operation
  the two compute the same entry: every sum of 128 products is the same sum (a block's row is the array's row), the
  thirds are the same lanes, and the reference's sigmoid, spelt 1 / (1 + e^(−x)), is the logistic function the kernel
  applies. No step uses distributivity or cancellation, so the inputs' finiteness is never needed.

  The kernel's run and frame, the reference's run and its stage-by-stage reading are imported; what is proved here is
  that the kernel's output array and the reference's result are one function of the arguments (`BondUpdate.updated` of
  the gathered arrays), entry by entry.
-/
import proofs.«142706_j5995774345719_2_alg».proof.Defs
import proofs.«142706_j5995774345719_2_alg».proof.Proof.Gen.Kernel
import proofs.«142706_j5995774345719_2_alg».proof.Proof.Gen.Kernel.Frame
import proofs.«142706_j5995774345719_2_alg».proof.Proof.Gen.KernelIdeal
import proofs.«142706_j5995774345719_2_alg».proof.Proof.Gen.KernelIdeal.Frame
import proofs.«142706_j5995774345719_2_alg».proof.Proof.Gen.KernelIdeal.Value
import proofs.«142706_j5995774345719_2_alg».proof.Proof.Gen.ReferenceIdeal
import proofs.«142706_j5995774345719_2_alg».proof.Proof.Gen.ReferenceIdeal.Run
import proofs.«142706_j5995774345719_2_alg».proof.Proof.Gen.ReferenceIdeal.Read
import proofs.«142706_j5995774345719_2_alg».proof.Proof.Gen.Pre_finite_inputs
import proofs.«142706_j5995774345719_2_alg».proof.Proof.KernelArray
import proofs.«142706_j5995774345719_2_alg».proof.Proof.ReferenceCell

noncomputable section

namespace Cert.Proof

open Idealize.ShloMosaic Idealize.ShloMosaic.TcCoe Idealize.SL.Sem

/-- The word-level kernel terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, with its result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- The reference's gathered arrays are the ones the kernel's host part prepares: the same operations of the same
    arguments. -/
theorem gathered_next (x0 : (⟨Cert.ReferenceIdeal.S400000x128, .f32⟩ : BufTy).Contents (Elt Ideal))
    (x2 : (⟨Cert.ReferenceIdeal.S400000x2, .i32⟩ : BufTy).Contents (Elt Ideal)) :
    Cert.ReferenceIdeal.Read.val_main_v8 (F := Ideal) x0 x2 = Cert.KernelIdeal.Whole.neighbours x0 x2 := rfl

/-- Likewise for the previous-neighbour table. -/
theorem gathered_prev (x0 : (⟨Cert.ReferenceIdeal.S400000x128, .f32⟩ : BufTy).Contents (Elt Ideal))
    (x3 : (⟨Cert.ReferenceIdeal.S400000x2, .i32⟩ : BufTy).Contents (Elt Ideal)) :
    Cert.ReferenceIdeal.Read.val_main_v17 (F := Ideal) x0 x3 = Cert.KernelIdeal.Whole.neighbours x0 x3 := rfl

/-- From memories that agree on the arguments, both programs end with the bond update of the gathered arrays. -/
theorem algebraic : Cert.algebraic_KernelIdeal_ReferenceIdeal := by
  intro m ρ m' ρ' _ hagree
  refine ⟨fun c => Cert.KernelIdeal.Whole.G m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v82_eq, Cert.ReferenceIdeal.Cell.result_eq, gathered_next, gathered_prev,
    h0, h1, h2, h3, h4, h5, h6, h7, h8, h9, h10, h11, h12, h13, h14]
  rfl

/-- The five claims, under the programs' stated side conditions. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
